-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x6x256x32 : Shape := ⟨4, ![256, 6, 256, 32]⟩
abbrev S961x6 : Shape := ⟨2, ![961, 6]⟩
abbrev S64x256x256 : Shape := ⟨3, ![64, 256, 256]⟩
abbrev S65536 : Shape := ⟨1, ![65536]⟩
abbrev S_ : Shape := ⟨0, ![]⟩

class Facts : Prop where
  bcast_S_S256x6x256x32 : S_.BroadcastsInDim S256x6x256x32 (![] : Fin 0 → Fin S256x6x256x32.rank)
  reducesTo_S256x6x256x32_S_d0_1_2_3 : S256x6x256x32.ReducesTo [0, 1, 2, 3] S_
  h_S_ : 0 < S_.numel
  bcast_S_S961x6 : S_.BroadcastsInDim S961x6 (![] : Fin 0 → Fin S961x6.rank)
  reducesTo_S961x6_S_d0_1 : S961x6.ReducesTo [0, 1] S_
  bcast_S_S64x256x256 : S_.BroadcastsInDim S64x256x256 (![] : Fin 0 → Fin S64x256x256.rank)
  reducesTo_S64x256x256_S_d0_1_2 : S64x256x256.ReducesTo [0, 1, 2] S_

variable [Facts]

def fn_part1 {F : FTy → Type} [FloatOps F] (main_arg4 : FVec F S64x256x256 .f32) (main_v13 : IVec S_ 1) (main_v16 : IVec S961x6 1) : IVec S_ 1 :=
  let main_c_5 : IVec S_ 1 := constantI S_ 1 1#1
  let main_v17 : IVec S_ 1 := (fun x v => Host.reduce IntOp.andi x v reducesTo_S961x6_S_d0_1 h_S_) main_v16 main_c_5
  let main_v18 : IVec S_ 1 := andi main_v13 main_v17
  let main_v19 : FVec F S64x256x256 .f32 := Host.absf main_arg4
  let main_cst_6 : FVec F S_ .f32 := constant S_ .f32 0x7F800000#32
  let main_v20 : FVec F S64x256x256 .f32 := broadcastInDim S64x256x256 ![] bcast_S_S64x256x256 main_cst_6
  let main_v21 : IVec S64x256x256 1 := cmpf .olt main_v19 main_v20
  let main_c_7 : IVec S_ 1 := constantI S_ 1 1#1
  let main_v22 : IVec S_ 1 := (fun x v => Host.reduce IntOp.andi x v reducesTo_S64x256x256_S_d0_1_2 h_S_) main_v21 main_c_7
  let main_v23 : IVec S_ 1 := andi main_v18 main_v22
  main_v23

def fn {F : FTy → Type} [FloatOps F] (main_arg0 : FVec F S256x6x256x32 .f32) (main_arg1 : FVec F S256x6x256x32 .f32) (main_arg2 : FVec F S256x6x256x32 .f32) (main_arg3 : FVec F S961x6 .f32) (main_arg4 : FVec F S64x256x256 .f32) (main_arg5 : IVec S65536 32) : IVec S_ 1 :=
  let main_v0 : FVec F S256x6x256x32 .f32 := Host.absf main_arg0
  let main_cst : FVec F S_ .f32 := constant S_ .f32 0x7F800000#32
  let main_v1 : FVec F S256x6x256x32 .f32 := broadcastInDim S256x6x256x32 ![] bcast_S_S256x6x256x32 main_cst
  let main_v2 : IVec S256x6x256x32 1 := cmpf .olt main_v0 main_v1
  let main_c : IVec S_ 1 := constantI S_ 1 1#1
  let main_v3 : IVec S_ 1 := (fun x v => Host.reduce IntOp.andi x v reducesTo_S256x6x256x32_S_d0_1_2_3 h_S_) main_v2 main_c
  let main_v4 : FVec F S256x6x256x32 .f32 := Host.absf main_arg1
  let main_cst_0 : FVec F S_ .f32 := constant S_ .f32 0x7F800000#32
  let main_v5 : FVec F S256x6x256x32 .f32 := broadcastInDim S256x6x256x32 ![] bcast_S_S256x6x256x32 main_cst_0
  let main_v6 : IVec S256x6x256x32 1 := cmpf .olt main_v4 main_v5
  let main_c_1 : IVec S_ 1 := constantI S_ 1 1#1
  let main_v7 : IVec S_ 1 := (fun x v => Host.reduce IntOp.andi x v reducesTo_S256x6x256x32_S_d0_1_2_3 h_S_) main_v6 main_c_1
  let main_v8 : IVec S_ 1 := andi main_v3 main_v7
  let main_v9 : FVec F S256x6x256x32 .f32 := Host.absf main_arg2
  let main_cst_2 : FVec F S_ .f32 := constant S_ .f32 0x7F800000#32
  let main_v10 : FVec F S256x6x256x32 .f32 := broadcastInDim S256x6x256x32 ![] bcast_S_S256x6x256x32 main_cst_2
  let main_v11 : IVec S256x6x256x32 1 := cmpf .olt main_v9 main_v10
  let main_c_3 : IVec S_ 1 := constantI S_ 1 1#1
  let main_v12 : IVec S_ 1 := (fun x v => Host.reduce IntOp.andi x v reducesTo_S256x6x256x32_S_d0_1_2_3 h_S_) main_v11 main_c_3
  let main_v13 : IVec S_ 1 := andi main_v8 main_v12
  let main_v14 : FVec F S961x6 .f32 := Host.absf main_arg3
  let main_cst_4 : FVec F S_ .f32 := constant S_ .f32 0x7F800000#32
  let main_v15 : FVec F S961x6 .f32 := broadcastInDim S961x6 ![] bcast_S_S961x6 main_cst_4
  let main_v16 : IVec S961x6 1 := cmpf .olt main_v14 main_v15
  fn_part1 (F := F) main_arg4 main_v13 main_v16
-- ==== Kernel.lean ====
abbrev S256x6x256x32 : Shape := ⟨4, ![256, 6, 256, 32]⟩
abbrev S961x6 : Shape := ⟨2, ![961, 6]⟩
abbrev S64x256x256 : Shape := ⟨3, ![64, 256, 256]⟩
abbrev S65536 : Shape := ⟨1, ![65536]⟩
abbrev S_ : Shape := ⟨0, ![]⟩
abbrev S65536x1 : Shape := ⟨2, ![65536, 1]⟩
abbrev S65536x6 : Shape := ⟨2, ![65536, 6]⟩
abbrev S256x256x6 : Shape := ⟨3, ![256, 256, 6]⟩
abbrev S6x256x256 : Shape := ⟨3, ![6, 256, 256]⟩
abbrev S256x256x192 : Shape := ⟨3, ![256, 256, 192]⟩
abbrev S1x6x256x32 : Shape := ⟨4, ![1, 6, 256, 32]⟩
abbrev S1x256x256 : Shape := ⟨3, ![1, 256, 256]⟩
abbrev S1x256x192 : Shape := ⟨3, ![1, 256, 192]⟩
abbrev S6x256x32 : Shape := ⟨3, ![6, 256, 32]⟩
abbrev S6x256 : Shape := ⟨2, ![6, 256]⟩
abbrev S6x256x1 : Shape := ⟨3, ![6, 256, 1]⟩
abbrev S6x1x256 : Shape := ⟨3, ![6, 1, 256]⟩
abbrev S256x256 : Shape := ⟨2, ![256, 256]⟩
abbrev S1x256x32 : Shape := ⟨3, ![1, 256, 32]⟩
abbrev S256x32 : Shape := ⟨2, ![256, 32]⟩

abbrev nBuf : Space → Nat
  | .hbm => 18
  | .vmem => 11
  | .smem => 0
  | _ => 0

abbrev bufTy : (tb : Table) → Fin (tcTables nBuf tb) → BufTy
  | .hbm, ⟨0, _⟩ => ⟨S256x6x256x32, .f32⟩
  | .hbm, ⟨1, _⟩ => ⟨S256x6x256x32, .f32⟩
  | .hbm, ⟨2, _⟩ => ⟨S256x6x256x32, .f32⟩
  | .hbm, ⟨3, _⟩ => ⟨S961x6, .f32⟩
  | .hbm, ⟨4, _⟩ => ⟨S64x256x256, .f32⟩
  | .hbm, ⟨5, _⟩ => ⟨S65536, .i32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S65536x6, .f32⟩
  | .hbm, ⟨15, _⟩ => ⟨S256x256x6, .f32⟩
  | .hbm, ⟨16, _⟩ => ⟨S6x256x256, .f32⟩
  | .hbm, ⟨17, _⟩ => ⟨S256x256x192, .f32⟩
  | .local _ .vmem, ⟨0, _⟩ => ⟨S1x6x256x32, .f32⟩
  | .local _ .vmem, ⟨1, _⟩ => ⟨S1x6x256x32, .f32⟩
  | .local _ .vmem, ⟨2, _⟩ => ⟨S1x6x256x32, .f32⟩
  | .local _ .vmem, ⟨3, _⟩ => ⟨S1x6x256x32, .f32⟩
  | .local _ .vmem, ⟨4, _⟩ => ⟨S1x6x256x32, .f32⟩
  | .local _ .vmem, ⟨5, _⟩ => ⟨S1x6x256x32, .f32⟩
  | .local _ .vmem, ⟨6, _⟩ => ⟨S6x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x192, .f32⟩
  | .local _ .vmem, ⟨10, _⟩ => ⟨S1x256x192, .f32⟩
  | _, _ => ⟨S256x6x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 4], ![false, false]⟩

def cc0_transform_0 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x6x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S6x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  shapeCasts_S65536x6_S256x256x6 : S65536x6.ShapeCasts S256x256x6
  transposes_S256x256x6_S6x256x256_2_0_1 : S256x256x6.Transposes [2, 0, 1] S6x256x256
  inb_S1x6x256x32_S1x6x256x32_0_0_0_0 : ∀ a, (![0, 0, 0, 0] : Fin 4 → Nat) a + S1x6x256x32.size a ≤ S1x6x256x32.size a
  h_S1x6x256x32 : 0 < S1x6x256x32.numel
  shapeCasts_S1x6x256x32_S6x256x32 : S1x6x256x32.ShapeCasts S6x256x32
  reduces_S6x256x32_S6x256 : S6x256x32.Reduces [2] S6x256
  shapeCasts_S6x256_S6x256x1 : S6x256.ShapeCasts S6x256x1
  shapeCasts_S6x256_S6x1x256 : S6x256.ShapeCasts S6x1x256
  bitsLt_bf16_f32 : FTy.bits .bf16 < FTy.bits .f32
  broadcasts_S6x256x1_S6x256x256 : S6x256x1.Broadcasts S6x256x256
  broadcasts_S6x1x256_S6x256x256 : S6x1x256.Broadcasts S6x256x256
  inb_S6x256x256_S6x256x256_0_0_0 : ∀ a, (![0, 0, 0] : Fin 3 → Nat) a + S6x256x256.size a ≤ S6x256x256.size a
  h_S6x256x256 : 0 < S6x256x256.numel
  shapeCasts_S6x256x256_S6x256x256 : S6x256x256.ShapeCasts S6x256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  broadcasts_S1x256x256_S6x256x256 : S1x256x256.Broadcasts S6x256x256
  reduces_S6x256x256_S6x256 : S6x256x256.Reduces [2] S6x256
  slices_S6x256x32_o0_0_0_S1x256x32 : S6x256x32.Slices ![0, 0, 0] S1x256x32
  shapeCasts_S1x256x32_S256x32 : S1x256x32.ShapeCasts S256x32
  inb_S1x256x192_S1x256x32_0_0_0 : ∀ a, (![0, 0, 0] : Fin 3 → Nat) a + S1x256x32.size a ≤ S1x256x192.size a
  h_S1x256x32 : 0 < S1x256x32.numel
  shapeCasts_S256x32_S1x256x32 : S256x32.ShapeCasts S1x256x32
  slices_S6x256x32_o1_0_0_S1x256x32 : S6x256x32.Slices ![1, 0, 0] S1x256x32
  inb_S1x256x192_S1x256x32_0_0_32 : ∀ a, (![0, 0, 32] : Fin 3 → Nat) a + S1x256x32.size a ≤ S1x256x192.size a
  slices_S6x256x32_o2_0_0_S1x256x32 : S6x256x32.Slices ![2, 0, 0] S1x256x32
  inb_S1x256x192_S1x256x32_0_0_64 : ∀ a, (![0, 0, 64] : Fin 3 → Nat) a + S1x256x32.size a ≤ S1x256x192.size a
  slices_S6x256x32_o3_0_0_S1x256x32 : S6x256x32.Slices ![3, 0, 0] S1x256x32
  inb_S1x256x192_S1x256x32_0_0_96 : ∀ a, (![0, 0, 96] : Fin 3 → Nat) a + S1x256x32.size a ≤ S1x256x192.size a
  slices_S6x256x32_o4_0_0_S1x256x32 : S6x256x32.Slices ![4, 0, 0] S1x256x32
  inb_S1x256x192_S1x256x32_0_0_128 : ∀ a, (![0, 0, 128] : Fin 3 → Nat) a + S1x256x32.size a ≤ S1x256x192.size a
  slices_S6x256x32_o5_0_0_S1x256x32 : S6x256x32.Slices ![5, 0, 0] S1x256x32
  inb_S1x256x192_S1x256x32_0_0_160 : ∀ a, (![0, 0, 160] : Fin 3 → Nat) a + S1x256x32.size a ≤ S1x256x192.size a
  gather_S961x6_S65536x1_S65536x6_1_0_n_n_0_1_16_wf : GatherDims.WF S961x6 S65536x1 S65536x6 [1] [0] [] [0] [] 1 ![1, 6]
  dot_S6x256x32_S6x256x32_S6x256x256_2_2_1_1_0_0_wf : DotDims.WF S6x256x32 S6x256x32 S6x256x256 [2] [2] [1] [1] [0] [0]
  dot_S6x256x256_S6x256x32_S6x256x32_2_1_1_2_0_0_wf : DotDims.WF S6x256x256 S6x256x32 S6x256x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6x256x32.size a ≤ S256x6x256x32.size a
  hwx0_0 : ∀ i : grid0.Coords, EltTy.bits .f32 = 32 ∨ (Rect.block (s := S256x6x256x32) S1x6x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6x256x32.size a ≤ S256x6x256x32.size a
  hwx0_1 : ∀ i : grid0.Coords, EltTy.bits .f32 = 32 ∨ (Rect.block (s := S256x6x256x32) S1x6x256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x6x256x32.size a ≤ S256x6x256x32.size a
  hwx0_2 : ∀ i : grid0.Coords, EltTy.bits .f32 = 32 ∨ (Rect.block (s := S256x6x256x32) S1x6x256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x256x256.size a ≤ S6x256x256.size a
  hwx0_3 : ∀ i : grid0.Coords, EltTy.bits .f32 = 32 ∨ (Rect.block (s := S6x256x256) S6x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S64x256x256.size a
  hwx0_4 : ∀ i : grid0.Coords, EltTy.bits .f32 = 32 ∨ (Rect.block (s := S64x256x256) S1x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x192.size a ≤ S256x256x192.size a
  hwx0_5 : ∀ i : grid0.Coords, EltTy.bits .f32 = 32 ∨ (Rect.block (s := S256x256x192) S1x256x192.size (cc0_transform_5 i) (hinb0_5 i)).WholeWords (EltTy.packing .f32)

variable [Facts₀]

def gather_S961x6_S65536x1_S65536x6_1_0_n_n_0_1_16 : GatherDims S961x6 S65536x1 S65536x6 where
  offsetDims := [1]
  collapsedSliceDims := [0]
  operandBatchingDims := []
  startIndicesBatchingDims := []
  startIndexMap := [0]
  indexVectorDim := 1
  sliceSizes := ![1, 6]
  wf := gather_S961x6_S65536x1_S65536x6_1_0_n_n_0_1_16_wf
def dot_S6x256x32_S6x256x32_S6x256x256_2_2_1_1_0_0 : DotDims S6x256x32 S6x256x32 S6x256x256 where
  lhsContracting := [2]
  rhsContracting := [2]
  lhsNonContracting := [1]
  rhsNonContracting := [1]
  lhsBatch := [0]
  rhsBatch := [0]
  wf := dot_S6x256x32_S6x256x32_S6x256x256_2_2_1_1_0_0_wf
def dot_S6x256x256_S6x256x32_S6x256x32_2_1_1_2_0_0 : DotDims S6x256x256 S6x256x32 S6x256x32 where
  lhsContracting := [2]
  rhsContracting := [1]
  lhsNonContracting := [1]
  rhsNonContracting := [2]
  lhsBatch := [0]
  rhsBatch := [0]
  wf := dot_S6x256x256_S6x256x32_S6x256x32_2_1_1_2_0_0_wf

abbrev win0_0 : Pipeline.Window sig grid0 :=
  Pipeline.Window.ofSpec (Memref.whole main_arg0) S1x6x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x6x256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x6x256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S6x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256x192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x6x256x32 : Shape := ⟨4, ![256, 6, 256, 32]⟩
abbrev S961x6 : Shape := ⟨2, ![961, 6]⟩
abbrev S64x256x256 : Shape := ⟨3, ![64, 256, 256]⟩
abbrev S65536 : Shape := ⟨1, ![65536]⟩
abbrev S_ : Shape := ⟨0, ![]⟩
abbrev S256x6x256 : Shape := ⟨3, ![256, 6, 256]⟩
abbrev S256x6x256x1 : Shape := ⟨4, ![256, 6, 256, 1]⟩
abbrev S256x6x1x256 : Shape := ⟨4, ![256, 6, 1, 256]⟩
abbrev S256x6x256x256 : Shape := ⟨4, ![256, 6, 256, 256]⟩
abbrev S65536x1 : Shape := ⟨2, ![65536, 1]⟩
abbrev S65536x6 : Shape := ⟨2, ![65536, 6]⟩
abbrev S256x256x6 : Shape := ⟨3, ![256, 256, 6]⟩
abbrev S6x256x256 : Shape := ⟨3, ![6, 256, 256]⟩
abbrev S1x6x256x256 : Shape := ⟨4, ![1, 6, 256, 256]⟩
abbrev S4x64x6x256x256 : Shape := ⟨5, ![4, 64, 6, 256, 256]⟩
abbrev S1x64x1x256x256 : Shape := ⟨5, ![1, 64, 1, 256, 256]⟩
abbrev S256x256x6x32 : Shape := ⟨4, ![256, 256, 6, 32]⟩
abbrev S256x256x192 : Shape := ⟨3, ![256, 256, 192]⟩

abbrev nBuf : Space → Nat
  | .hbm => 62
  | .vmem => 0
  | .smem => 0
  | _ => 0

abbrev bufTy : (tb : Table) → Fin (tcTables nBuf tb) → BufTy
  | .hbm, ⟨0, _⟩ => ⟨S256x6x256x32, .f32⟩
  | .hbm, ⟨1, _⟩ => ⟨S256x6x256x32, .f32⟩
  | .hbm, ⟨2, _⟩ => ⟨S256x6x256x32, .f32⟩
  | .hbm, ⟨3, _⟩ => ⟨S961x6, .f32⟩
  | .hbm, ⟨4, _⟩ => ⟨S64x256x256, .f32⟩
  | .hbm, ⟨5, _⟩ => ⟨S65536, .i32⟩
  | .hbm, ⟨6, _⟩ => ⟨S256x6x256x32, .f32⟩
  | .hbm, ⟨7, _⟩ => ⟨S_, .f32⟩
  | .hbm, ⟨8, _⟩ => ⟨S256x6x256, .f32⟩
  | .hbm, ⟨9, _⟩ => ⟨S256x6x256x1, .f32⟩
  | .hbm, ⟨10, _⟩ => ⟨S256x6x256x32, .f32⟩
  | .hbm, ⟨11, _⟩ => ⟨S_, .f32⟩
  | .hbm, ⟨12, _⟩ => ⟨S256x6x256, .f32⟩
  | .hbm, ⟨13, _⟩ => ⟨S256x6x1x256, .f32⟩
  | .hbm, ⟨14, _⟩ => ⟨S256x6x256x256, .f32⟩
  | .hbm, ⟨15, _⟩ => ⟨S256x6x256x256, .f32⟩
  | .hbm, ⟨16, _⟩ => ⟨S256x6x256x256, .f32⟩
  | .hbm, ⟨17, _⟩ => ⟨S256x6x256x256, .f32⟩
  | .hbm, ⟨18, _⟩ => ⟨S_, .f32⟩
  | .hbm, ⟨19, _⟩ => ⟨S256x6x256x256, .f32⟩
  | .hbm, ⟨20, _⟩ => ⟨S256x6x256x256, .f32⟩
  | .hbm, ⟨21, _⟩ => ⟨S256x6x256x256, .f32⟩
  | .hbm, ⟨22, _⟩ => ⟨S_, .f32⟩
  | .hbm, ⟨23, _⟩ => ⟨S256x6x256x256, .f32⟩
  | .hbm, ⟨24, _⟩ => ⟨S256x6x256x256, .f32⟩
  | .hbm, ⟨25, _⟩ => ⟨S256x6x256x256, .f32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S65536x1, .i32⟩
  | .hbm, ⟨34, _⟩ => ⟨S65536x6, .f32⟩
  | .hbm, ⟨35, _⟩ => ⟨S256x256x6, .f32⟩
  | .hbm, ⟨36, _⟩ => ⟨S6x256x256, .f32⟩
  | .hbm, ⟨37, _⟩ => ⟨S1x6x256x256, .f32⟩
  | .hbm, ⟨38, _⟩ => ⟨S256x6x256x256, .f32⟩
  | .hbm, ⟨39, _⟩ => ⟨S256x6x256x256, .f32⟩
  | .hbm, ⟨40, _⟩ => ⟨S4x64x6x256x256, .f32⟩
  | .hbm, ⟨41, _⟩ => ⟨S1x64x1x256x256, .f32⟩
  | .hbm, ⟨42, _⟩ => ⟨S4x64x6x256x256, .f32⟩
  | .hbm, ⟨43, _⟩ => ⟨S4x64x6x256x256, .f32⟩
  | .hbm, ⟨44, _⟩ => ⟨S256x6x256x256, .f32⟩
  | .hbm, ⟨45, _⟩ => ⟨S_, .f32⟩
  | .hbm, ⟨46, _⟩ => ⟨S256x6x256, .f32⟩
  | .hbm, ⟨47, _⟩ => ⟨S_, .f32⟩
  | .hbm, ⟨48, _⟩ => ⟨S256x6x256, .f32⟩
  | .hbm, ⟨49, _⟩ => ⟨S256x6x256, .f32⟩
  | .hbm, ⟨50, _⟩ => ⟨S256x6x256x1, .f32⟩
  | .hbm, ⟨51, _⟩ => ⟨S256x6x256x256, .f32⟩
  | .hbm, ⟨52, _⟩ => ⟨S256x6x256x256, .f32⟩
  | .hbm, ⟨53, _⟩ => ⟨S256x6x256x256, .f32⟩
  | .hbm, ⟨54, _⟩ => ⟨S_, .f32⟩
  | .hbm, ⟨55, _⟩ => ⟨S256x6x256, .f32⟩
  | .hbm, ⟨56, _⟩ => ⟨S256x6x256x1, .f32⟩
  | .hbm, ⟨57, _⟩ => ⟨S256x6x256x256, .f32⟩
  | .hbm, ⟨58, _⟩ => ⟨S256x6x256x256, .f32⟩
  | .hbm, ⟨59, _⟩ => ⟨S256x6x256x32, .f32⟩
  | .hbm, ⟨60, _⟩ => ⟨S256x256x6x32, .f32⟩
  | .hbm, ⟨61, _⟩ => ⟨S256x256x192, .f32⟩
  | _, _ => ⟨S256x6x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  reducesTo_S256x6x256x32_S256x6x256_d3 : S256x6x256x32.ReducesTo [3] S256x6x256
  h_S_ : 0 < S_.numel
  bcast_S256x6x256_S256x6x256x1_0_1_2 : S256x6x256.BroadcastsInDim S256x6x256x1 (![0, 1, 2] : Fin 3 → Fin S256x6x256x1.rank)
  bcast_S256x6x256_S256x6x1x256_0_1_3 : S256x6x256.BroadcastsInDim S256x6x1x256 (![0, 1, 3] : Fin 3 → Fin S256x6x1x256.rank)
  bcast_S256x6x256x1_S256x6x256x256_0_1_2_3 : S256x6x256x1.BroadcastsInDim S256x6x256x256 (![0, 1, 2, 3] : Fin 4 → Fin S256x6x256x256.rank)
  bcast_S256x6x1x256_S256x6x256x256_0_1_2_3 : S256x6x1x256.BroadcastsInDim S256x6x256x256 (![0, 1, 2, 3] : Fin 4 → Fin S256x6x256x256.rank)
  bcast_S_S256x6x256x256 : S_.BroadcastsInDim S256x6x256x256 (![] : Fin 0 → Fin S256x6x256x256.rank)
  bcast_S_S65536 : S_.BroadcastsInDim S65536 (![] : Fin 0 → Fin S65536.rank)
  bcast_S65536_S65536x1_0 : S65536.BroadcastsInDim S65536x1 (![0] : Fin 1 → Fin S65536x1.rank)
  shapeCasts_S65536x6_S256x256x6 : S65536x6.ShapeCasts S256x256x6
  transposes_S256x256x6_S6x256x256_2_0_1 : S256x256x6.Transposes [2, 0, 1] S6x256x256
  bcast_S6x256x256_S1x6x256x256_1_2_3 : S6x256x256.BroadcastsInDim S1x6x256x256 (![1, 2, 3] : Fin 3 → Fin S1x6x256x256.rank)
  bcast_S1x6x256x256_S256x6x256x256_0_1_2_3 : S1x6x256x256.BroadcastsInDim S256x6x256x256 (![0, 1, 2, 3] : Fin 4 → Fin S256x6x256x256.rank)
  shapeCasts_S256x6x256x256_S4x64x6x256x256 : S256x6x256x256.ShapeCasts S4x64x6x256x256
  bcast_S64x256x256_S1x64x1x256x256_1_3_4 : S64x256x256.BroadcastsInDim S1x64x1x256x256 (![1, 3, 4] : Fin 3 → Fin S1x64x1x256x256.rank)
  bcast_S1x64x1x256x256_S4x64x6x256x256_0_1_2_3_4 : S1x64x1x256x256.BroadcastsInDim S4x64x6x256x256 (![0, 1, 2, 3, 4] : Fin 5 → Fin S4x64x6x256x256.rank)
  shapeCasts_S4x64x6x256x256_S256x6x256x256 : S4x64x6x256x256.ShapeCasts S256x6x256x256
  reducesTo_S256x6x256x256_S256x6x256_d3 : S256x6x256x256.ReducesTo [3] S256x6x256
  bcast_S_S256x6x256 : S_.BroadcastsInDim S256x6x256 (![] : Fin 0 → Fin S256x6x256.rank)
  transposes_S256x6x256x32_S256x256x6x32_0_2_1_3 : S256x6x256x32.Transposes [0, 2, 1, 3] S256x256x6x32
  shapeCasts_S256x256x6x32_S256x256x192 : S256x256x6x32.ShapeCasts S256x256x192
  dot_S256x6x256x32_S256x6x256x32_S256x6x256x256_3_3_2_2_01_01_wf : DotDims.WF S256x6x256x32 S256x6x256x32 S256x6x256x256 [3] [3] [2] [2] [0, 1] [0, 1]
  gather_S961x6_S65536x1_S65536x6_1_0_n_n_0_1_16_wf : GatherDims.WF S961x6 S65536x1 S65536x6 [1] [0] [] [0] [] 1 ![1, 6]
  dot_S256x6x256x256_S256x6x256x32_S256x6x256x32_3_2_2_3_01_01_wf : DotDims.WF S256x6x256x256 S256x6x256x32 S256x6x256x32 [3] [2] [2] [3] [0, 1] [0, 1]

variable [Facts₀]

def dot_S256x6x256x32_S256x6x256x32_S256x6x256x256_3_3_2_2_01_01 : DotDims S256x6x256x32 S256x6x256x32 S256x6x256x256 where
  lhsContracting := [3]
  rhsContracting := [3]
  lhsNonContracting := [2]
  rhsNonContracting := [2]
  lhsBatch := [0, 1]
  rhsBatch := [0, 1]
  wf := dot_S256x6x256x32_S256x6x256x32_S256x6x256x256_3_3_2_2_01_01_wf
def gather_S961x6_S65536x1_S65536x6_1_0_n_n_0_1_16 : GatherDims S961x6 S65536x1 S65536x6 where
  offsetDims := [1]
  collapsedSliceDims := [0]
  operandBatchingDims := []
  startIndicesBatchingDims := []
  startIndexMap := [0]
  indexVectorDim := 1
  sliceSizes := ![1, 6]
  wf := gather_S961x6_S65536x1_S65536x6_1_0_n_n_0_1_16_wf
def dot_S256x6x256x256_S256x6x256x32_S256x6x256x32_3_2_2_3_01_01 : DotDims S256x6x256x256 S256x6x256x32 S256x6x256x32 where
  lhsContracting := [3]
  rhsContracting := [2]
  lhsNonContracting := [2]
  rhsNonContracting := [3]
  lhsBatch := [0, 1]
  rhsBatch := [0, 1]
  wf := dot_S256x6x256x256_S256x6x256x32_S256x6x256x32_3_2_2_3_01_01_wf

class Facts : Prop extends Facts₀ where

variable [Facts]
-- ==== Proof.Spec.lean ====
/-
  Windowed attention with Euclidean-distance logits, one (window, head) pair at a time.

  For one batch entry b and one head h let Q, K, V be the 256 × 32 slices of q, k, v, B the 256 × 256 slice of the
  relative-position bias at head h and M the 256 × 256 mask of window b mod 64. On the extended reals

      logit n m = sqrt (max (|Q n|² + |K m|² − 2 · ⟨Q n, K m⟩) 0) + B n m + M n m
      rowmax L  = max (−∞) (max over m of L m, from −∞)
      prob L m  = exp (L m − rowmax L) / Σ m' exp (L m' − rowmax L)
      attn1 n d = Σ m prob (logit n) m · V m d

  where |X n|² = Σ d X n d · X n d and ⟨Q n, K m⟩ = Σ d Q n d · K m d. The three literals (2, 0, −∞) stay as the words both
  programs print; nothing here evaluates them. The result array has entry (b, n, 32·h + d) equal to attn1 n d of the slices at
  (b, h): `Gc`, and `G` as a function of the array index.
-/
import Idealize.ShloMosaic.PureOps.Ideal.Laws
import Idealize.ShloMosaic.Lib.ValueIdx

noncomputable section

namespace Cert.Attn

open Idealize.ShloMosaic Idealize.ShloMosaic.ValueIdx

/-- The squared length of row `n`. -/
def sqn (X : Fin 256 → Fin 32 → EReal) (n : Fin 256) : EReal := ∑ d : Fin 32, X n d * X n d

/-- The inner product of row `n` of `Q` with row `m` of `K`. -/
def dotp (Q K : Fin 256 → Fin 32 → EReal) (n m : Fin 256) : EReal := ∑ d : Fin 32, Q n d * K m d

/-- The logit of query `n` against key `m`: their Euclidean distance (the square clamped at zero before the root), plus
    the bias and the mask. -/
def logit (Q K : Fin 256 → Fin 32 → EReal) (B M : Fin 256 → Fin 256 → EReal) (n m : Fin 256) : EReal :=
  Ideal.sqrt (max (sqn Q n + sqn K m - Ideal.ofBits .f32 0x40000000#32 * dotp Q K n m) (Ideal.ofBits .f32 0x00000000#32))
    + B n m + M n m

/-- The largest entry of a row of logits, folded from −∞ and once more compared with −∞. -/
def rowmax (L : Fin 256 → EReal) : EReal :=
  max (Ideal.ofBits .f32 0xFF800000#32) ((Finset.univ : Finset (Fin 256)).fold max (Ideal.ofBits .f32 0xFF800000#32) L)

/-- The shifted exponential of entry `m` of a row. -/
def expd (L : Fin 256 → EReal) (m : Fin 256) : EReal := Ideal.exp (L m - rowmax L)

/-- The softmax weight of entry `m` of a row. -/
def prob (L : Fin 256 → EReal) (m : Fin 256) : EReal := Ideal.div (expd L m) (∑ m' : Fin 256, expd L m')

/-- One head's attention output at row `n`, feature `d`. -/
def attn1 (Q K V : Fin 256 → Fin 32 → EReal) (B M : Fin 256 → Fin 256 → EReal) (n : Fin 256) (d : Fin 32) : EReal :=
  ∑ m : Fin 256, prob (logit Q K B M n) m * V m d

/-- The head a merged feature column belongs to, its position inside the head, and the window of a batch entry. -/
def hd (c : Fin 192) : Fin 6 := ⟨c.val / 32, by omega⟩
def ln (c : Fin 192) : Fin 32 := ⟨c.val % 32, by omega⟩
def wn (b : Fin 256) : Fin 64 := ⟨b.val % 64, by omega⟩

/-- The result at batch entry `b`, row `n`, merged column `c`. -/
def Gc (q k v : (⟨4, ![256, 6, 256, 32]⟩ : Shape).Idx → EReal) (bias : (⟨3, ![6, 256, 256]⟩ : Shape).Idx → EReal)
    (mask : (⟨3, ![64, 256, 256]⟩ : Shape).Idx → EReal) (b : Fin 256) (n : Fin 256) (c : Fin 192) : EReal :=
  attn1 (fun n' d => q (ix4 b (hd c) n' d)) (fun m d => k (ix4 b (hd c) m d)) (fun m d => v (ix4 b (hd c) m d))
    (fun n' m => bias (ix3 (hd c) n' m)) (fun n' m => mask (ix3 (wn b) n' m)) n (ln c)

/-- The whole result array. -/
def G (q k v : (⟨4, ![256, 6, 256, 32]⟩ : Shape).Idx → EReal) (bias : (⟨3, ![6, 256, 256]⟩ : Shape).Idx → EReal)
    (mask : (⟨3, ![64, 256, 256]⟩ : Shape).Idx → EReal) : (⟨3, ![256, 256, 192]⟩ : Shape).Idx → EReal :=
  fun i => Gc q k v bias mask (i 0) (i 1) (i 2)

theorem G_ix3 (q k v : (⟨4, ![256, 6, 256, 32]⟩ : Shape).Idx → EReal) (bias : (⟨3, ![6, 256, 256]⟩ : Shape).Idx → EReal)
    (mask : (⟨3, ![64, 256, 256]⟩ : Shape).Idx → EReal) (b : Fin 256) (n : Fin 256) (c : Fin 192) :
    G q k v bias mask (ix3 b n c) = Gc q k v bias mask b n c := rfl

end Cert.Attn

end
-- ==== Proof.Stores.lean ====
/-
  The kernel body's result block. The body computes one [6, 256, 32] value P (the six heads' outputs) and stores head h's
  slab P[h] into columns 32·h … 32·h + 31 of the [1, 256, 192] output block, by six stores. Read back, the block is ONE
  function of its index: entry (0, n, c) is P (c / 32, n, c mod 32).
-/
import proofs.«131583_j59373627899920_1_alg».proof.Proof.Gen.KernelIdeal.Frame
import proofs.«131583_j59373627899920_1_alg».proof.Proof.Spec
import Idealize.ShloMosaic.Lib.Pipeline.Value
import Idealize.ShloMosaic.Lib.ValueIdx

set_option maxRecDepth 16384

noncomputable section

namespace Cert.Attn.Stores

open Idealize.ShloMosaic Idealize.ShloMosaic.ValueIdx Cert.KernelIdeal Cert.KernelIdeal.Gen

/-- Head `h`'s slab of a [6, 256, 32] value, cut out as [1, 256, 32], flattened to [256, 32] and cast back: its entry
    (0, n, d) is the value at (h, n, d). -/
theorem slab_at (off : Fin 3 → Nat) (hs : S6x256x32.Slices off S1x256x32) (h : Fin 6) (hoff : off = ![h.val, 0, 0])
    (v : FVec Ideal S6x256x32 .f32) (z : Fin 1) (n : Fin 256) (d : Fin 32) :
    shapeCast S1x256x32 (shapeCast S256x32 (extractStridedSlice S1x256x32 off v hs) shapeCasts_S1x256x32_S256x32)
      shapeCasts_S256x32_S1x256x32 (ix3 z n d) = v (ix3 h n d) := by
  rw [shapeCast_shapeCast]
  refine extractStridedSlice_apply off v hs (ix3 z n d) (ix3 h n d) fun a => ?_
  subst hoff
  have hz : z.val = 0 := by have := z.isLt; omega
  match a with
  | ⟨0, _⟩ => show h.val = h.val + z.val; omega
  | ⟨1, _⟩ => show n.val = 0 + n.val; omega
  | ⟨2, _⟩ => show d.val = 0 + d.val; omega

/-- The block as one function of its index: column `c` belongs to head `c / 32`, at feature `c mod 32`. -/
def blockFn (P : FVec Ideal S6x256x32 .f32) : S1x256x192.Idx → EReal := fun y =>
  P (ix3 (⟨(y 2).val / 32, by have h : (y 2).val < 192 := (y 2).isLt; omega⟩ : Fin 6)
    (⟨(y 1).val, (y 1).isLt⟩ : Fin 256) (⟨(y 2).val % 32, Nat.mod_lt _ (by decide)⟩ : Fin 32))

/-- Six slabs, each stored through the rectangle of its 32 columns, read back as the one function. -/
theorem canon_slabs (P : FVec Ideal S6x256x32 .f32) (p0 p1 p2 p3 p4 p5 : FVec Ideal S1x256x32 .f32)
    (h0 : ∀ (z : Fin 1) (n : Fin 256) (d : Fin 32), p0 (ix3 z n d) = P (ix3 5 n d))
    (h1 : ∀ (z : Fin 1) (n : Fin 256) (d : Fin 32), p1 (ix3 z n d) = P (ix3 4 n d))
    (h2 : ∀ (z : Fin 1) (n : Fin 256) (d : Fin 32), p2 (ix3 z n d) = P (ix3 3 n d))
    (h3 : ∀ (z : Fin 1) (n : Fin 256) (d : Fin 32), p3 (ix3 z n d) = P (ix3 2 n d))
    (h4 : ∀ (z : Fin 1) (n : Fin 256) (d : Fin 32), p4 (ix3 z n d) = P (ix3 1 n d))
    (h5 : ∀ (z : Fin 1) (n : Fin 256) (d : Fin 32), p5 (ix3 z n d) = P (ix3 0 n d))
    (y : S1x256x192.Idx) :
    View.canon ([⟨r0_8, p0⟩, ⟨r0_7, p1⟩, ⟨r0_6, p2⟩, ⟨r0_5, p3⟩, ⟨r0_4, p4⟩, ⟨r0_3, p5⟩] : List (View.Piece (Elt Ideal) S1x256x192 .f32)) y
      = blockFn P y := by
  refine View.canon_apply_of_pieces (blockFn P) _ ?_ y (cover0_5 (F := Ideal) p0 p1 p2 p3 p4 p5 y)
  intro p hp x
  simp only [List.mem_cons, List.not_mem_nil, or_false] at hp
  rcases hp with rfl | rfl | rfl | rfl | rfl | rfl
  all_goals
    obtain ⟨z, n, d, rfl⟩ : ∃ (z : Fin 1) (n : Fin 256) (d : Fin 32), x = ix3 z n d := ⟨x 0, x 1, x 2, eq_ix3 x⟩
  · refine (h0 z n d).trans (congrArg P (funext fun a => Fin.ext ?_))
    match a with
    | ⟨0, _⟩ => show 5 = (160 + 1 * d.val) / 32; have := d.isLt; omega
    | ⟨1, _⟩ => show n.val = 0 + 1 * n.val; omega
    | ⟨2, _⟩ => show d.val = (160 + 1 * d.val) % 32; have := d.isLt; omega
  · refine (h1 z n d).trans (congrArg P (funext fun a => Fin.ext ?_))
    match a with
    | ⟨0, _⟩ => show 4 = (128 + 1 * d.val) / 32; have := d.isLt; omega
    | ⟨1, _⟩ => show n.val = 0 + 1 * n.val; omega
    | ⟨2, _⟩ => show d.val = (128 + 1 * d.val) % 32; have := d.isLt; omega
  · refine (h2 z n d).trans (congrArg P (funext fun a => Fin.ext ?_))
    match a with
    | ⟨0, _⟩ => show 3 = (96 + 1 * d.val) / 32; have := d.isLt; omega
    | ⟨1, _⟩ => show n.val = 0 + 1 * n.val; omega
    | ⟨2, _⟩ => show d.val = (96 + 1 * d.val) % 32; have := d.isLt; omega
  · refine (h3 z n d).trans (congrArg P (funext fun a => Fin.ext ?_))
    match a with
    | ⟨0, _⟩ => show 2 = (64 + 1 * d.val) / 32; have := d.isLt; omega
    | ⟨1, _⟩ => show n.val = 0 + 1 * n.val; omega
    | ⟨2, _⟩ => show d.val = (64 + 1 * d.val) % 32; have := d.isLt; omega
  · refine (h4 z n d).trans (congrArg P (funext fun a => Fin.ext ?_))
    match a with
    | ⟨0, _⟩ => show 1 = (32 + 1 * d.val) / 32; have := d.isLt; omega
    | ⟨1, _⟩ => show n.val = 0 + 1 * n.val; omega
    | ⟨2, _⟩ => show d.val = (32 + 1 * d.val) % 32; have := d.isLt; omega
  · refine (h5 z n d).trans (congrArg P (funext fun a => Fin.ext ?_))
    match a with
    | ⟨0, _⟩ => show 0 = (0 + 1 * d.val) / 32; have := d.isLt; omega
    | ⟨1, _⟩ => show n.val = 0 + 1 * n.val; omega
    | ⟨2, _⟩ => show d.val = (0 + 1 * d.val) % 32; have := d.isLt; omega

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- What the body leaves in the output block, from the five input blocks: the block function of the heads' outputs. -/
theorem out_at (x0 x1 x2 : Vec Ideal S1x6x256x32 .f32) (x3 : Vec Ideal S6x256x256 .f32) (x4 : Vec Ideal S1x256x256 .f32)
    (y : S1x256x192.Idx) :
    out0_5 x0 x1 x2 x3 x4 y
      = blockFn (k0_pay5 (k0_pay2 x2) (k0_pay3 x0 x1 x3 x4) (k0_pay4 x0 x1 x3 x4) (Scalar.ofBits .f32 0xFF800000#32)) y := by
  unfold out0_5
  simp only [View.ld_unit_zero (S := S1x6x256x32) hz4, View.ld_unit_zero (S := S6x256x256) hz3,
    View.ld_unit_zero (S := S1x256x256) hz3]
  refine canon_slabs _ _ _ _ _ _ _ ?_ ?_ ?_ ?_ ?_ ?_ y
  · intro z n d; unfold k0_pay1; exact slab_at _ _ 5 rfl _ z n d
  · intro z n d; unfold k0_pay10; exact slab_at _ _ 4 rfl _ z n d
  · intro z n d; unfold k0_pay9; exact slab_at _ _ 3 rfl _ z n d
  · intro z n d; unfold k0_pay8; exact slab_at _ _ 2 rfl _ z n d
  · intro z n d; unfold k0_pay7; exact slab_at _ _ 1 rfl _ z n d
  · intro z n d; unfold k0_pay6; exact slab_at _ _ 0 rfl _ z n d

end Cert.Attn.Stores

end
-- ==== Proof.KerPay.lean ====
/-
  The kernel's arithmetic read at an index.

  The kernel body's value for one (window, head-block) step is a function of five blocks: the q, k and v blocks
  [1, 6, 256, 32], the bias [6, 256, 256] and the mask [1, 256, 256]. Read at head h, row n and feature d it is

      Σ m  prob (logit n) m · V m d

  with logit n m = sqrt (max (|Q n|² + |K m|² − 2 · ⟨Q n, K m⟩) 0) + B n m + M n m, the row maximum folded from −∞, and
  prob the shifted exponential over its row sum: the specification `Cert.Attn.attn1` at the head's slices. The proof reads
  each operation at an index: the shape casts and broadcasts by their row-major positions, each one-axis reduction as a
  sum or a fold over the reduced coordinate, each matmul as the sum over its one contraction coordinate.
-/
import proofs.«131583_j59373627899920_1_alg».proof.Proof.Gen.KernelIdeal.Skeleton
import proofs.«131583_j59373627899920_1_alg».proof.Proof.Spec
import Idealize.ShloMosaic.Lib.Pipeline.Value

noncomputable section

namespace Cert.Attn.Ker

open Idealize.ShloMosaic Idealize.ShloMosaic.ValueIdx Cert.KernelIdeal Cert.KernelIdeal.Gen

/-! ## Layout operations at an index -/

section Layout
variable {α : Type}

/-- Dropping the block's leading unit axis: (h, n, d) reads (0, h, n, d). -/
theorem cast4_apply (x : S1x6x256x32.Idx → α) (hc : S1x6x256x32.ShapeCasts S6x256x32) (h : Fin 6) (n : Fin 256) (d : Fin 32) :
    shapeCast S6x256x32 x hc (ix3 h n d) = x (ix4 0 h n d) :=
  shapeCast_apply x hc (ix3 h n d) (ix4 0 h n d) (by
    rw [Shape.rowMajor_val_four, Shape.rowMajor_val_three]
    show ((0 * 6 + h.val) * 256 + n.val) * 32 + d.val = (h.val * 256 + n.val) * 32 + d.val
    omega)

/-- A per-row value kept as a column [6, 256, 1] and broadcast along the last axis: (h, n, m) reads (h, n). -/
theorem rowBcast_apply (v : S6x256.Idx → α) (hc : S6x256.ShapeCasts S6x256x1) (hb : S6x256x1.Broadcasts S6x256x256)
    (h : Fin 6) (n m : Fin 256) :
    broadcastTo S6x256x256 (shapeCast S6x256x1 v hc) hb (ix3 h n m) = v (ix2 h n) := by
  refine (broadcastTo_apply _ hb (ix3 h n m) (ix3 h n 0) (fun a => ?_)).trans ?_
  · match a with
    | ⟨0, _⟩ => rfl
    | ⟨1, _⟩ => rfl
    | ⟨2, _⟩ => rfl
  · exact shapeCast_apply v hc (ix3 h n 0) (ix2 h n) (by
      rw [Shape.rowMajor_val_two, Shape.rowMajor_val_three]
      show h.val * 256 + n.val = (h.val * 256 + n.val) * 1 + 0
      omega)

/-- A per-row value kept as a row [6, 1, 256] and broadcast along the middle axis: (h, n, m) reads (h, m). -/
theorem colBcast_apply (v : S6x256.Idx → α) (hc : S6x256.ShapeCasts S6x1x256) (hb : S6x1x256.Broadcasts S6x256x256)
    (h : Fin 6) (n m : Fin 256) :
    broadcastTo S6x256x256 (shapeCast S6x1x256 v hc) hb (ix3 h n m) = v (ix2 h m) := by
  refine (broadcastTo_apply _ hb (ix3 h n m) (ix3 h 0 m) (fun a => ?_)).trans ?_
  · match a with
    | ⟨0, _⟩ => rfl
    | ⟨1, _⟩ => rfl
    | ⟨2, _⟩ => rfl
  · exact shapeCast_apply v hc (ix3 h 0 m) (ix2 h m) (by
      rw [Shape.rowMajor_val_two, Shape.rowMajor_val_three]
      show h.val * 256 + m.val = (h.val * 1 + 0) * 256 + m.val
      omega)

/-- The mask block, cast to [256, 256] and back and broadcast over the heads: (h, n, m) reads (0, n, m). -/
theorem maskBcast_apply (x : S1x256x256.Idx → α) (hc : S1x256x256.ShapeCasts S256x256) (hc' : S256x256.ShapeCasts S1x256x256)
    (hb : S1x256x256.Broadcasts S6x256x256) (h : Fin 6) (n m : Fin 256) :
    broadcastTo S6x256x256 (shapeCast S1x256x256 (shapeCast S256x256 x hc) hc') hb (ix3 h n m) = x (ix3 0 n m) := by
  rw [shapeCast_shapeCast]
  refine broadcastTo_apply x hb (ix3 h n m) (ix3 0 n m) (fun a => ?_)
  match a with
  | ⟨0, _⟩ => rfl
  | ⟨1, _⟩ => rfl
  | ⟨2, _⟩ => rfl

end Layout

/-! ## The one-axis reductions at an index -/

/-- The row (h, n) with coordinate k inserted on the last axis, for the [6, 256, 32] blocks. -/
theorem lift32 (hr : S6x256x32.Reduces [2] S6x256) (h : Fin 6) (n : Fin 256) (k : Fin 32) :
    hr.lift (ix2 h n) k = ix3 h n k := by
  funext a
  match a with
  | ⟨0, _⟩ => rfl
  | ⟨1, _⟩ => rfl
  | ⟨2, _⟩ => rfl

/-- The same for the [6, 256, 256] logits. -/
theorem lift256 (hr : S6x256x256.Reduces [2] S6x256) (h : Fin 6) (n : Fin 256) (k : Fin 256) :
    hr.lift (ix2 h n) k = ix3 h n k := by
  funext a
  match a with
  | ⟨0, _⟩ => rfl
  | ⟨1, _⟩ => rfl
  | ⟨2, _⟩ => rfl

/-- A sum over the feature axis of a [6, 256, 32] block, from the zero word. -/
theorem sum32_apply (v : FVec Ideal S6x256x32 .f32) (hr : S6x256x32.Reduces [2] S6x256) (hφ : FKind.Formats .f32)
    (hacc : (0x00000000#32 : BitVec (FTy.bits .f32)) = FKind.add.neutral .f32 hφ) (h : Fin 6) (n : Fin 256) :
    multiReduction .add [2] S6x256 v 0x00000000#32 hr hφ hacc (ix2 h n) = ∑ k : Fin 32, v (ix3 h n k) := by
  refine (Ideal.multiReduction_add_single v 0x00000000#32 hr hφ hacc (ix2 h n)).trans ?_
  show ∑ k : Fin 32, v (hr.lift (ix2 h n) k) = _
  exact Finset.sum_congr rfl fun k _ => congrArg v (lift32 hr h n k)

/-- A sum over the key axis of the [6, 256, 256] logits, from the zero word. -/
theorem sum256_apply (v : FVec Ideal S6x256x256 .f32) (hr : S6x256x256.Reduces [2] S6x256) (hφ : FKind.Formats .f32)
    (hacc : (0x00000000#32 : BitVec (FTy.bits .f32)) = FKind.add.neutral .f32 hφ) (h : Fin 6) (n : Fin 256) :
    multiReduction .add [2] S6x256 v 0x00000000#32 hr hφ hacc (ix2 h n) = ∑ k : Fin 256, v (ix3 h n k) := by
  refine (Ideal.multiReduction_add_single v 0x00000000#32 hr hφ hacc (ix2 h n)).trans ?_
  show ∑ k : Fin 256, v (hr.lift (ix2 h n) k) = _
  exact Finset.sum_congr rfl fun k _ => congrArg v (lift256 hr h n k)

/-- A maximum over the key axis of the [6, 256, 256] logits, folded from the word of −∞. -/
theorem max256_apply (v : FVec Ideal S6x256x256 .f32) (hr : S6x256x256.Reduces [2] S6x256) (hφ : FKind.Formats .f32)
    (hacc : (0xFF800000#32 : BitVec (FTy.bits .f32)) = FKind.maximumf.neutral .f32 hφ) (h : Fin 6) (n : Fin 256) :
    multiReduction .maximumf [2] S6x256 v 0xFF800000#32 hr hφ hacc (ix2 h n)
      = (Finset.univ : Finset (Fin 256)).fold max (Ideal.ofBits .f32 0xFF800000#32) (fun m => v (ix3 h n m)) := by
  refine (Ideal.multiReduction_maximumf_single v 0xFF800000#32 hr hφ hacc (ix2 h n)).trans ?_
  show (Finset.univ : Finset (Fin 256)).fold max (Ideal.ofBits .f32 0xFF800000#32) (v ∘ hr.lift (ix2 h n)) = _
  have e : v ∘ hr.lift (ix2 h n) = fun m => v (ix3 h n m) := funext fun m => congrArg v (lift256 hr h n m)
  exact congrArg (fun f => (Finset.univ : Finset (Fin 256)).fold max (Ideal.ofBits .f32 0xFF800000#32) f) e

/-! ## The two matmuls at an index -/

/-- The dimension numbers of q · kᵀ: batch axis 0, contraction over the feature axis of both operands. -/
abbrev D1 : DotDims S6x256x32 S6x256x32 S6x256x256 := dot_S6x256x32_S6x256x32_S6x256x256_2_2_1_1_0_0
/-- The dimension numbers of p · v: batch axis 0, contraction of the key axis of p with the row axis of v. -/
abbrev D2 : DotDims S6x256x256 S6x256x32 S6x256x32 := dot_S6x256x256_S6x256x32_S6x256x32_2_1_1_2_0_0

theorem D1_lhs0 (i : S6x256x256.Idx) (q : D1.contr.Idx) : (D1.lhsIdx i q 0).val = (i 0).val := by
  unfold DotDims.lhsIdx
  rw [dif_pos (show (0 : Fin S6x256x32.rank) ∈ D1.lhsBatch by decide)]
  rfl
theorem D1_lhs1 (i : S6x256x256.Idx) (q : D1.contr.Idx) : (D1.lhsIdx i q 1).val = (i 1).val := by
  unfold DotDims.lhsIdx
  rw [dif_neg (show ¬(1 : Fin S6x256x32.rank) ∈ D1.lhsBatch by decide),
    dif_pos (show (1 : Fin S6x256x32.rank) ∈ D1.lhsNonContracting by decide)]
  rfl
theorem D1_lhs2 (i : S6x256x256.Idx) (q : D1.contr.Idx) : (D1.lhsIdx i q 2).val = (q ⟨0, by decide⟩).val :=
  D1.lhsIdx_val_of_single rfl i q
theorem D1_rhs0 (i : S6x256x256.Idx) (q : D1.contr.Idx) : (D1.rhsIdx i q 0).val = (i 0).val := by
  unfold DotDims.rhsIdx
  rw [dif_pos (show (0 : Fin S6x256x32.rank) ∈ D1.rhsBatch by decide)]
  rfl
theorem D1_rhs1 (i : S6x256x256.Idx) (q : D1.contr.Idx) : (D1.rhsIdx i q 1).val = (i 2).val := by
  unfold DotDims.rhsIdx
  rw [dif_neg (show ¬(1 : Fin S6x256x32.rank) ∈ D1.rhsBatch by decide),
    dif_pos (show (1 : Fin S6x256x32.rank) ∈ D1.rhsNonContracting by decide)]
  rfl
theorem D1_rhs2 (i : S6x256x256.Idx) (q : D1.contr.Idx) : (D1.rhsIdx i q 2).val = (q ⟨0, by decide⟩).val :=
  D1.rhsIdx_val_of_single rfl i q

/-- q · kᵀ into the zero splat, at (h, n, m): the sum over the feature coordinate. -/
theorem mm1_apply {φ₁ φ₂ : FTy} (a : FVec Ideal S6x256x32 φ₁) (b : FVec Ideal S6x256x32 φ₂) (h : Fin 6) (n m : Fin 256) :
    matmul D1 none a b (constant S6x256x256 .f32 0x00000000#32) (ix3 h n m) = ∑ k : Fin 32, a (ix3 h n k) * b (ix3 h m k) := by
  refine (Ideal.matmul_constant_zero_apply D1 none a b (ix3 h n m)).trans ?_
  rw [← Equiv.sum_comp (contrEquiv1 D1 32 rfl rfl).symm]
  refine Finset.sum_congr rfl fun k _ => ?_
  have hk := contrEquiv1_symm_val D1 32 rfl rfl k
  have el : D1.lhsIdx (ix3 h n m) ((contrEquiv1 D1 32 rfl rfl).symm k) = ix3 h n k := funext fun c => Fin.ext (by
    match c with
    | ⟨0, _⟩ => exact D1_lhs0 _ _
    | ⟨1, _⟩ => exact D1_lhs1 _ _
    | ⟨2, _⟩ => exact (D1_lhs2 _ _).trans hk)
  have er : D1.rhsIdx (ix3 h n m) ((contrEquiv1 D1 32 rfl rfl).symm k) = ix3 h m k := funext fun c => Fin.ext (by
    match c with
    | ⟨0, _⟩ => exact D1_rhs0 _ _
    | ⟨1, _⟩ => exact D1_rhs1 _ _
    | ⟨2, _⟩ => exact (D1_rhs2 _ _).trans hk)
  rw [el, er]

theorem D2_lhs0 (i : S6x256x32.Idx) (q : D2.contr.Idx) : (D2.lhsIdx i q 0).val = (i 0).val := by
  unfold DotDims.lhsIdx
  rw [dif_pos (show (0 : Fin S6x256x256.rank) ∈ D2.lhsBatch by decide)]
  rfl
theorem D2_lhs1 (i : S6x256x32.Idx) (q : D2.contr.Idx) : (D2.lhsIdx i q 1).val = (i 1).val := by
  unfold DotDims.lhsIdx
  rw [dif_neg (show ¬(1 : Fin S6x256x256.rank) ∈ D2.lhsBatch by decide),
    dif_pos (show (1 : Fin S6x256x256.rank) ∈ D2.lhsNonContracting by decide)]
  rfl
theorem D2_lhs2 (i : S6x256x32.Idx) (q : D2.contr.Idx) : (D2.lhsIdx i q 2).val = (q ⟨0, by decide⟩).val :=
  D2.lhsIdx_val_of_single rfl i q
theorem D2_rhs0 (i : S6x256x32.Idx) (q : D2.contr.Idx) : (D2.rhsIdx i q 0).val = (i 0).val := by
  unfold DotDims.rhsIdx
  rw [dif_pos (show (0 : Fin S6x256x32.rank) ∈ D2.rhsBatch by decide)]
  rfl
theorem D2_rhs1 (i : S6x256x32.Idx) (q : D2.contr.Idx) : (D2.rhsIdx i q 1).val = (q ⟨0, by decide⟩).val :=
  D2.rhsIdx_val_of_single rfl i q
theorem D2_rhs2 (i : S6x256x32.Idx) (q : D2.contr.Idx) : (D2.rhsIdx i q 2).val = (i 2).val := by
  unfold DotDims.rhsIdx
  rw [dif_neg (show ¬(2 : Fin S6x256x32.rank) ∈ D2.rhsBatch by decide),
    dif_pos (show (2 : Fin S6x256x32.rank) ∈ D2.rhsNonContracting by decide)]
  rfl

/-- p · v into the zero splat, at (h, n, d): the sum over the key coordinate. -/
theorem mm2_apply {φ₁ φ₂ : FTy} (a : FVec Ideal S6x256x256 φ₁) (b : FVec Ideal S6x256x32 φ₂) (h : Fin 6) (n : Fin 256) (d : Fin 32) :
    matmul D2 none a b (constant S6x256x32 .f32 0x00000000#32) (ix3 h n d) = ∑ m : Fin 256, a (ix3 h n m) * b (ix3 h m d) := by
  refine (Ideal.matmul_constant_zero_apply D2 none a b (ix3 h n d)).trans ?_
  rw [← Equiv.sum_comp (contrEquiv1 D2 256 rfl rfl).symm]
  refine Finset.sum_congr rfl fun k _ => ?_
  have hk := contrEquiv1_symm_val D2 256 rfl rfl k
  have el : D2.lhsIdx (ix3 h n d) ((contrEquiv1 D2 256 rfl rfl).symm k) = ix3 h n k := funext fun c => Fin.ext (by
    match c with
    | ⟨0, _⟩ => exact D2_lhs0 _ _
    | ⟨1, _⟩ => exact D2_lhs1 _ _
    | ⟨2, _⟩ => exact (D2_lhs2 _ _).trans hk)
  have er : D2.rhsIdx (ix3 h n d) ((contrEquiv1 D2 256 rfl rfl).symm k) = ix3 h k d := funext fun c => Fin.ext (by
    match c with
    | ⟨0, _⟩ => exact D2_rhs0 _ _
    | ⟨1, _⟩ => exact (D2_rhs1 _ _).trans hk
    | ⟨2, _⟩ => exact D2_rhs2 _ _)
  rw [el, er]

/-! ## The logits, the row maximum and the result at an index -/

section Payload
variable (x0 x1 x2 : Vec Ideal S1x6x256x32 .f32) (x3 : Vec Ideal S6x256x256 .f32) (x4 : Vec Ideal S1x256x256 .f32)

/-- The logits block at (h, n, m) is the specification's logit of the head's slices. -/
theorem pay3_at (h : Fin 6) (n m : Fin 256) :
    k0_pay3 (F := Ideal) x0 x1 x3 x4 (ix3 h n m)
      = Cert.Attn.logit (fun n' d' => x0 (ix4 0 h n' d')) (fun m' d' => x1 (ix4 0 h m' d'))
          (fun n' m' => x3 (ix3 h n' m')) (fun n' m' => x4 (ix3 0 n' m')) n m := by
  unfold k0_pay3 Cert.Attn.logit Cert.Attn.sqn Cert.Attn.dotp
  refine congrArg₂ (· + ·) (congrArg₂ (· + ·) (congrArg Ideal.sqrt (congrArg₂ max (congrArg₂ (· - ·)
    (congrArg₂ (· + ·) ?_ ?_) (congrArg₂ (· * ·) rfl ?_)) rfl)) ?_) ?_
  · -- |Q n|², through the column form
    refine (rowBcast_apply _ _ _ h n m).trans ((sum32_apply _ _ _ _ h n).trans ?_)
    exact Finset.sum_congr rfl fun k _ => congrArg₂ (· * ·) (cast4_apply x0 _ h n k) (cast4_apply x0 _ h n k)
  · -- |K m|², through the row form
    refine (colBcast_apply _ _ _ h n m).trans ((sum32_apply _ _ _ _ h m).trans ?_)
    exact Finset.sum_congr rfl fun k _ => congrArg₂ (· * ·) (cast4_apply x1 _ h m k) (cast4_apply x1 _ h m k)
  · -- ⟨Q n, K m⟩
    refine (mm1_apply _ _ h n m).trans ?_
    exact Finset.sum_congr rfl fun k _ => congrArg₂ (· * ·) (cast4_apply x0 _ h n k) (cast4_apply x1 _ h m k)
  · -- the bias
    exact congrFun (shapeCast_self x3 _) (ix3 h n m)
  · -- the mask
    exact maskBcast_apply x4 _ _ _ h n m

/-- The row maximum at (h, n): the fold of max from −∞ over the logits of row n. -/
theorem pay4_at (h : Fin 6) (n : Fin 256) :
    k0_pay4 (F := Ideal) x0 x1 x3 x4 (ix2 h n)
      = (Finset.univ : Finset (Fin 256)).fold max (Ideal.ofBits .f32 0xFF800000#32)
          (fun m => k0_pay3 (F := Ideal) x0 x1 x3 x4 (ix3 h n m)) := by
  unfold k0_pay4
  exact max256_apply (k0_pay3 (F := Ideal) x0 x1 x3 x4) _ _ _ h n

/-- The softmax and the second matmul over any logits block, row-maximum block and clamp: at (h, n, d) the sum over the keys
    of the shifted exponential over its row sum, times the value block. -/
theorem pay5_apply (v5 : FVec Ideal S6x256x32 .f32) (v31 : FVec Ideal S6x256x256 .f32) (v32 : FVec Ideal S6x256 .f32)
    (cst : Ideal .f32) (h : Fin 6) (n : Fin 256) (d : Fin 32) :
    k0_pay5 (F := Ideal) v5 v31 v32 cst (ix3 h n d)
      = ∑ m : Fin 256, Ideal.div (Ideal.exp (v31 (ix3 h n m) - max cst (v32 (ix2 h n))))
          (∑ m' : Fin 256, Ideal.exp (v31 (ix3 h n m') - max cst (v32 (ix2 h n)))) * v5 (ix3 h m d) := by
  unfold k0_pay5
  refine (mm2_apply _ _ h n d).trans ?_
  refine Finset.sum_congr rfl fun m _ => ?_
  refine congrArg₂ (· * ·) (congrArg₂ Ideal.div ?_ ?_) rfl
  · -- the shifted exponential: the row maximum comes back through the column form
    exact congrArg Ideal.exp (congrArg₂ (· - ·) rfl (rowBcast_apply _ _ _ h n m))
  · -- the row sum, through the column form
    refine (rowBcast_apply _ _ _ h n m).trans ((sum256_apply _ _ _ _ h n).trans ?_)
    exact Finset.sum_congr rfl fun m' _ => congrArg Ideal.exp (congrArg₂ (· - ·) rfl (rowBcast_apply _ _ _ h n m'))

end Payload

/-- The kernel's value at head h, row n, feature d is the specification's attention output of the head's slices. -/
theorem pay_at (x0 x1 x2 : Vec Ideal S1x6x256x32 .f32) (x3 : Vec Ideal S6x256x256 .f32) (x4 : Vec Ideal S1x256x256 .f32)
    (h : Fin 6) (n : Fin 256) (d : Fin 32) :
    k0_pay5 (F := Ideal) (k0_pay2 x2) (k0_pay3 x0 x1 x3 x4) (k0_pay4 x0 x1 x3 x4) (Scalar.ofBits .f32 0xFF800000#32) (ix3 h n d)
      = Cert.Attn.attn1 (fun n' d' => x0 (ix4 0 h n' d')) (fun m d' => x1 (ix4 0 h m d')) (fun m d' => x2 (ix4 0 h m d'))
          (fun n' m => x3 (ix3 h n' m)) (fun n' m => x4 (ix3 0 n' m)) n d := by
  refine (pay5_apply _ _ _ _ h n d).trans ?_
  unfold Cert.Attn.attn1 Cert.Attn.prob Cert.Attn.expd Cert.Attn.rowmax
  -- the row of logits, and the kernel's row and row maximum as that row's
  have hL : ∀ m : Fin 256, k0_pay3 (F := Ideal) x0 x1 x3 x4 (ix3 h n m)
      = Cert.Attn.logit (fun n' d' => x0 (ix4 0 h n' d')) (fun m d' => x1 (ix4 0 h m d'))
          (fun n' m => x3 (ix3 h n' m)) (fun n' m => x4 (ix3 0 n' m)) n m := fun m => pay3_at x0 x1 x3 x4 h n m
  have hM : k0_pay4 (F := Ideal) x0 x1 x3 x4 (ix2 h n)
      = (Finset.univ : Finset (Fin 256)).fold max (Ideal.ofBits .f32 0xFF800000#32)
          (Cert.Attn.logit (fun n' d' => x0 (ix4 0 h n' d')) (fun m d' => x1 (ix4 0 h m d'))
            (fun n' m => x3 (ix3 h n' m)) (fun n' m => x4 (ix3 0 n' m)) n) :=
    (pay4_at x0 x1 x3 x4 h n).trans
      (congrArg (fun f => (Finset.univ : Finset (Fin 256)).fold max (Ideal.ofBits .f32 0xFF800000#32) f) (funext hL))
  have e1 : ∀ m : Fin 256,
      Ideal.exp (k0_pay3 (F := Ideal) x0 x1 x3 x4 (ix3 h n m)
          - max (Scalar.ofBits (F := Ideal) .f32 0xFF800000#32) (k0_pay4 (F := Ideal) x0 x1 x3 x4 (ix2 h n)))
        = Ideal.exp (Cert.Attn.logit (fun n' d' => x0 (ix4 0 h n' d')) (fun m d' => x1 (ix4 0 h m d'))
              (fun n' m => x3 (ix3 h n' m)) (fun n' m => x4 (ix3 0 n' m)) n m
            - max (Ideal.ofBits .f32 0xFF800000#32)
                ((Finset.univ : Finset (Fin 256)).fold max (Ideal.ofBits .f32 0xFF800000#32)
                  (Cert.Attn.logit (fun n' d' => x0 (ix4 0 h n' d')) (fun m d' => x1 (ix4 0 h m d'))
                    (fun n' m => x3 (ix3 h n' m)) (fun n' m => x4 (ix3 0 n' m)) n))) :=
    fun m => congrArg Ideal.exp (congrArg₂ (· - ·) (hL m) (congrArg (max (Ideal.ofBits .f32 0xFF800000#32)) hM))
  exact Finset.sum_congr rfl fun m _ => congrArg₂ (· * ·)
    (congrArg₂ Ideal.div (e1 m) (Finset.sum_congr rfl fun m' _ => e1 m')) (cast4_apply x2 _ h m d)

end Cert.Attn.Ker

end
-- ==== Proof.WholeArray.lean ====
/-
  From blocks to the whole array. Grid point t = (window, repeat) works on batch entry b = 64 · repeat + window: it reads
  block b of q, k and v, the whole bias table, the mask of window b mod 64, and writes block b of the output. So what
  point t writes back is block b of the specification `G` of the arrays as the region finds them; the 256 points' blocks
  are the 256 batch entries, which cover the output array; hence the array ends at `G`.
-/
import proofs.«131583_j59373627899920_1_alg».proof.Proof.Gen.KernelIdeal.Value
import proofs.«131583_j59373627899920_1_alg».proof.Proof.Spec
import proofs.«131583_j59373627899920_1_alg».proof.Proof.Stores
import proofs.«131583_j59373627899920_1_alg».proof.Proof.KerPay
import Idealize.ShloMosaic.Lib.Pipeline.Value
import Idealize.ShloMosaic.Lib.ValueIdx
import Idealize.ShloMosaic.Lib.Decide

set_option maxRecDepth 16384

noncomputable section

namespace Cert.Attn.Whole

open Idealize.ShloMosaic Idealize.ShloMosaic.TcCoe Idealize.SL.Sem Idealize.ShloMosaic.ValueIdx
open Cert.KernelIdeal Cert.KernelIdeal.Gen
open Idealize.ShloMosaic.Pipeline (Dat)

/-- The printed index maps, decided over the 256 grid points: q, k and v move with the output along the batch axis, the
    bias stays, the mask is at the output's batch entry mod 64, and every other block index is zero. -/
theorem idx_facts : ∀ t : Fin cfg0.N,
    win0_0.index t (0 : Fin 4) = win0_5.index t (0 : Fin 3) ∧ win0_0.index t (1 : Fin 4) = 0 ∧ win0_0.index t (2 : Fin 4) = 0 ∧ win0_0.index t (3 : Fin 4) = 0
    ∧ win0_1.index t (0 : Fin 4) = win0_5.index t (0 : Fin 3) ∧ win0_1.index t (1 : Fin 4) = 0 ∧ win0_1.index t (2 : Fin 4) = 0 ∧ win0_1.index t (3 : Fin 4) = 0
    ∧ win0_2.index t (0 : Fin 4) = win0_5.index t (0 : Fin 3) ∧ win0_2.index t (1 : Fin 4) = 0 ∧ win0_2.index t (2 : Fin 4) = 0 ∧ win0_2.index t (3 : Fin 4) = 0
    ∧ win0_3.index t (0 : Fin 3) = 0 ∧ win0_3.index t (1 : Fin 3) = 0 ∧ win0_3.index t (2 : Fin 3) = 0
    ∧ win0_4.index t (0 : Fin 3) = win0_5.index t (0 : Fin 3) % 64 ∧ win0_4.index t (1 : Fin 3) = 0 ∧ win0_4.index t (2 : Fin 3) = 0
    ∧ win0_5.index t (0 : Fin 3) < 256 ∧ win0_5.index t (1 : Fin 3) = 0 ∧ win0_5.index t (2 : Fin 3) = 0 :=
  (by decide +kernel : ∀ t : Fin grid0.N, _)

/-- Every batch entry is some point's. -/
theorem idx_onto : ∀ q : Fin 256, ∃ t : Fin cfg0.N, win0_5.index t (0 : Fin 3) = q.val :=
  (by decide +kernel : ∀ q : Fin 256, ∃ t : Fin grid0.N, win0_5.index t (0 : Fin 3) = q.val)

/-- The one-head attention depends on its five slices entry by entry. -/
theorem attn1_congr {Q Q' K K' V V' : Fin 256 → Fin 32 → EReal} {B B' M M' : Fin 256 → Fin 256 → EReal}
    (hQ : ∀ n d, Q n d = Q' n d) (hK : ∀ n d, K n d = K' n d) (hV : ∀ n d, V n d = V' n d)
    (hB : ∀ n l, B n l = B' n l) (hM : ∀ n l, M n l = M' n l) (n : Fin 256) (d : Fin 32) :
    Cert.Attn.attn1 Q K V B M n d = Cert.Attn.attn1 Q' K' V' B' M' n d := by
  obtain rfl : Q = Q' := funext fun n => funext fun d => hQ n d
  obtain rfl : K = K' := funext fun n => funext fun d => hK n d
  obtain rfl : V = V' := funext fun n => funext fun d => hV n d
  obtain rfl : B = B' := funext fun n => funext fun l => hB n l
  obtain rfl : M = M' := funext fun n => funext fun l => hM n l
  rfl

variable (m : (ℓ : Loc nD τ sig) → Buf (Elt Ideal) ℓ) (ρ : Dev nD → PrngReg)

/-- WHAT POINT `t` WRITES BACK is block `t` of the specification of the arrays as the region finds them. -/
theorem flushed_eq (c : Dev nD) (t : Fin cfg0.N) :
    (dats m 0 c).flushed 5 t = ((cfg0.win 5).blk t).view.read (Elt Ideal)
      (Cert.Attn.G (V m c main_arg0) (V m c main_arg1) (V m c main_arg2) (V m c main_v8) (V m c main_arg4)) := by
  rw [Cert.KernelIdeal.Value.flushed5]
  funext j
  obtain ⟨f0, f01, f02, f03, f1, f11, f12, f13, f2, f21, f22, f23, f30, f31, f32, f4, f41, f42, f5lt, f51, f52⟩ := idx_facts t
  have hj0 : (j 0).val < 1 := (j 0).isLt
  have hj1 : (j 1).val < 256 := (j 1).isLt
  have hj2 : (j 2).val < 192 := (j 2).isLt
  have he : ((cfg0.win 5).blk t).view.emb j
      = ix3 (⟨win0_5.index t (0 : Fin 3), f5lt⟩ : Fin 256) (⟨(j 1).val, hj1⟩ : Fin 256) (⟨(j 2).val, hj2⟩ : Fin 192) := by
    funext a; apply Fin.ext
    match a with
    | ⟨0, _⟩ => show win0_5.index t (0 : Fin 3) * 1 + 1 * (j 0).val = win0_5.index t (0 : Fin 3); omega
    | ⟨1, _⟩ => show win0_5.index t (1 : Fin 3) * 256 + 1 * (j 1).val = (j 1).val; omega
    | ⟨2, _⟩ => show win0_5.index t (2 : Fin 3) * 192 + 1 * (j 2).val = (j 2).val; omega
  show out0_5 (iblk m c 0 t) (iblk m c 1 t) (iblk m c 2 t) (iblk m c 3 t) (iblk m c 4 t) j
      = Cert.Attn.G (V m c main_arg0) (V m c main_arg1) (V m c main_arg2) (V m c main_v8) (V m c main_arg4)
          (((cfg0.win 5).blk t).view.emb j)
  rw [he, Cert.Attn.G_ix3]
  refine (Cert.Attn.Stores.out_at (iblk m c 0 t) (iblk m c 1 t) (iblk m c 2 t) (iblk m c 3 t) (iblk m c 4 t) j).trans ?_
  unfold Cert.Attn.Stores.blockFn
  refine (Cert.Attn.Ker.pay_at (iblk m c 0 t) (iblk m c 1 t) (iblk m c 2 t) (iblk m c 3 t) (iblk m c 4 t) _ _ _).trans ?_
  unfold Cert.Attn.Gc
  refine attn1_congr ?_ ?_ ?_ ?_ ?_ _ _
  · intro n d
    show V m c main_arg0 (((cfg0.win 0).blk t).view.emb (ix4 0 _ n d)) = V m c main_arg0 (ix4 _ _ n d)
    refine congrArg _ (funext fun a => Fin.ext ?_)
    match a with
    | ⟨0, _⟩ => show win0_0.index t (0 : Fin 4) * 1 + 1 * 0 = win0_5.index t (0 : Fin 3); omega
    | ⟨1, _⟩ => show win0_0.index t (1 : Fin 4) * 6 + 1 * ((j 2).val / 32) = (j 2).val / 32; omega
    | ⟨2, _⟩ => show win0_0.index t (2 : Fin 4) * 256 + 1 * n.val = n.val; omega
    | ⟨3, _⟩ => show win0_0.index t (3 : Fin 4) * 32 + 1 * d.val = d.val; omega
  · intro n d
    show V m c main_arg1 (((cfg0.win 1).blk t).view.emb (ix4 0 _ n d)) = V m c main_arg1 (ix4 _ _ n d)
    refine congrArg _ (funext fun a => Fin.ext ?_)
    match a with
    | ⟨0, _⟩ => show win0_1.index t (0 : Fin 4) * 1 + 1 * 0 = win0_5.index t (0 : Fin 3); omega
    | ⟨1, _⟩ => show win0_1.index t (1 : Fin 4) * 6 + 1 * ((j 2).val / 32) = (j 2).val / 32; omega
    | ⟨2, _⟩ => show win0_1.index t (2 : Fin 4) * 256 + 1 * n.val = n.val; omega
    | ⟨3, _⟩ => show win0_1.index t (3 : Fin 4) * 32 + 1 * d.val = d.val; omega
  · intro n d
    show V m c main_arg2 (((cfg0.win 2).blk t).view.emb (ix4 0 _ n d)) = V m c main_arg2 (ix4 _ _ n d)
    refine congrArg _ (funext fun a => Fin.ext ?_)
    match a with
    | ⟨0, _⟩ => show win0_2.index t (0 : Fin 4) * 1 + 1 * 0 = win0_5.index t (0 : Fin 3); omega
    | ⟨1, _⟩ => show win0_2.index t (1 : Fin 4) * 6 + 1 * ((j 2).val / 32) = (j 2).val / 32; omega
    | ⟨2, _⟩ => show win0_2.index t (2 : Fin 4) * 256 + 1 * n.val = n.val; omega
    | ⟨3, _⟩ => show win0_2.index t (3 : Fin 4) * 32 + 1 * d.val = d.val; omega
  · intro n l
    show V m c main_v8 (((cfg0.win 3).blk t).view.emb (ix3 _ n l)) = V m c main_v8 (ix3 _ n l)
    refine congrArg _ (funext fun a => Fin.ext ?_)
    match a with
    | ⟨0, _⟩ => show win0_3.index t (0 : Fin 3) * 6 + 1 * ((j 2).val / 32) = (j 2).val / 32; omega
    | ⟨1, _⟩ => show win0_3.index t (1 : Fin 3) * 256 + 1 * n.val = n.val; omega
    | ⟨2, _⟩ => show win0_3.index t (2 : Fin 3) * 256 + 1 * l.val = l.val; omega
  · intro n l
    show V m c main_arg4 (((cfg0.win 4).blk t).view.emb (ix3 0 n l)) = V m c main_arg4 (ix3 _ n l)
    refine congrArg _ (funext fun a => Fin.ext ?_)
    match a with
    | ⟨0, _⟩ => show win0_4.index t (0 : Fin 3) * 1 + 1 * 0 = win0_5.index t (0 : Fin 3) % 64; omega
    | ⟨1, _⟩ => show win0_4.index t (1 : Fin 3) * 256 + 1 * n.val = n.val; omega
    | ⟨2, _⟩ => show win0_4.index t (2 : Fin 3) * 256 + 1 * l.val = l.val; omega

/-- An index of the output array is in point `t`'s block iff each coordinate is in the block's range on its axis. -/
theorem mem_blk (t : Fin cfg0.N) (i : S256x256x192.Idx) :
    i ∈ ((cfg0.win 5).blk t).view.set ↔ ∀ a : Fin 3, win0_5.index t a * S1x256x192.size a ≤ (i a).val ∧ (i a).val < win0_5.index t a * S1x256x192.size a + S1x256x192.size a := by
  show i ∈ ((View.whole main_v9).slice (win0_5.rect t)).set ↔ _
  rw [View.set_slice_whole, Rect.mem_set_unit]
  exact Iff.rfl

/-- The blocks cover the output array: row `i 0` is in the block of the point whose batch entry it is. -/
theorem cover (i : S256x256x192.Idx) : ∃ t : Fin cfg0.N, (cfg0.win 5).flush t = true ∧ i ∈ ((cfg0.win 5).blk t).view.set := by
  have hi0 : (i 0).val < 256 := (i 0).isLt
  have hi1 : (i 1).val < 256 := (i 1).isLt
  have hi2 : (i 2).val < 192 := (i 2).isLt
  obtain ⟨t, ht⟩ := idx_onto ⟨(i 0).val, hi0⟩
  obtain ⟨-, -, -, -, -, -, -, -, -, -, -, -, -, -, -, -, -, -, -, f51, f52⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; have e : win0_5.index t (0 : Fin 3) = (i 0).val := ht; omega
  | ⟨1, _⟩ => show win0_5.index t (1 : Fin 3) * 256 ≤ (i 1).val ∧ (i 1).val < win0_5.index t (1 : Fin 3) * 256 + 256; omega
  | ⟨2, _⟩ => show win0_5.index t (2 : Fin 3) * 192 ≤ (i 2).val ∧ (i 2).val < win0_5.index t (2 : Fin 3) * 192 + 192; omega

/-- THE ARRAY after the run: the specification of the arrays as the region finds them. -/
theorem final (c : Dev nD) : (dats m 0 c).arrAt 5 cfg0.N
    = Cert.Attn.G (V m c main_arg0) (V m c main_arg1) (V m c main_arg2) (V m c main_v8) (V m c main_arg4) :=
  (dats m 0 c).arrAt_eq_of_cover 5 _ (fun t _ => flushed_eq m c t) cover

end Cert.Attn.Whole

end
-- ==== Proof.Bias.lean ====
/-
  The relative-position bias table the kernel's region finds in its fourth operand. Before the region the kernel's @main
  gathers rows of the table at the index vector (negative indices wrapped by 961), reshapes the 65536 × 6 result to
  256 × 256 × 6 and moves the head axis first. The reference performs the same five operations on the same arguments, so
  the array the region finds IS the reference's bias stage of the launch contents: the two terms differ only in the
  proofs of their shape facts, and nothing of the gather is opened.
-/
import proofs.«131583_j59373627899920_1_alg».proof.Proof.Gen.KernelIdeal.Frame
import proofs.«131583_j59373627899920_1_alg».proof.Proof.Gen.ReferenceIdeal.Read
import Idealize.ShloMosaic.Lib.StableHlo.Run

set_option maxRecDepth 16384

noncomputable section

namespace Cert.Attn.Bias

open Idealize.ShloMosaic Idealize.ShloMosaic.TcCoe Idealize.SL.Sem
open Cert.KernelIdeal Cert.KernelIdeal.Gen

/-- The bias array at region entry is the reference's bias stage of the table and the index vector as launched. -/
theorem bias_eq (m : (ℓ : Loc nD τ sig) → Buf (Elt Ideal) ℓ) (c : Dev nD) :
    (V m c main_v8 : S6x256x256.Idx → EReal)
      = Cert.ReferenceIdeal.Read.val_main_v24 (F := Ideal) (m ((c : Thread nD τ).loc main_arg3)) (m ((c : Thread nD τ).loc main_arg5)) := by
  dsimp only [V, hostOps0]
  after_results
  rfl

end Cert.Attn.Bias

end
-- ==== Proof.RefRead.lean ====
/-
  The reference program read at an index.

  Each stage of the reference is a full array; here every stage is read at one index, from the squared row lengths and
  the inner products up to the result, and identified with the matching piece of the specification: the squared lengths
  and inner products are sums over the 32 features, the logit adds the bias and the mask (the mask is read at the window
  b mod 64 because the reference splits the batch axis as 4 × 64 and merges it back), the row maximum is a fold of max
  from −∞, the softmax weight is the shifted exponential divided by the row's sum, the second product sums over the 256
  keys, and the final transpose and merge of the head and feature axes sends column c to head c / 32, feature c mod 32.
-/
import proofs.«131583_j59373627899920_1_alg».proof.Proof.Gen.ReferenceIdeal.Read
import proofs.«131583_j59373627899920_1_alg».proof.Proof.Spec
noncomputable section
namespace Cert.Attn.Ref
open Idealize.ShloMosaic Idealize.ShloMosaic.ValueIdx Cert.ReferenceIdeal Cert.ReferenceIdeal.Gen
open Cert.ReferenceIdeal.Read

/-- The arrays q, k, v. -/
abbrev A4 := (⟨S256x6x256x32, .f32⟩ : BufTy).Contents (Elt Ideal)

/-- The squared length of a row of q: the reference's sum over the feature axis, from the zero word. -/
theorem v1_at (x0 : A4) (b : Fin 256) (h : Fin 6) (n : Fin 256) :
    val_main_v1 (F := Ideal) x0 (ix3 b h n) = Cert.Attn.sqn (fun n' d => x0 (ix4 b h n' d)) n := by
  rw [val_main_v1_apply, val_main_cst_apply]
  show Ideal.ofBits .f32 0x00000000#32 + _ = _
  rw [Ideal.ofBits_zero_f32, zero_add]
  unfold Cert.Attn.sqn
  refine Finset.sum_congr rfl fun k _ => ?_
  rw [val_main_v0_apply]
  have e : idx_main_v1 (ix3 b h n) k = ix4 b h n k := by
    funext a; match a with | ⟨0, _⟩ => rfl | ⟨1, _⟩ => rfl | ⟨2, _⟩ => rfl | ⟨3, _⟩ => rfl
  rw [e]; rfl

/-- The squared length of a row of k. -/
theorem v4_at (x1 : A4) (b : Fin 256) (h : Fin 6) (m : Fin 256) :
    val_main_v4 (F := Ideal) x1 (ix3 b h m) = Cert.Attn.sqn (fun n' d => x1 (ix4 b h n' d)) m := by
  rw [val_main_v4_apply, val_main_cst_0_apply]
  show Ideal.ofBits .f32 0x00000000#32 + _ = _
  rw [Ideal.ofBits_zero_f32, zero_add]
  unfold Cert.Attn.sqn
  refine Finset.sum_congr rfl fun k _ => ?_
  rw [val_main_v3_apply]
  have e : idx_main_v4 (ix3 b h m) k = ix4 b h m k := by
    funext a; match a with | ⟨0, _⟩ => rfl | ⟨1, _⟩ => rfl | ⟨2, _⟩ => rfl | ⟨3, _⟩ => rfl
  rw [e]; rfl

/-- The inner product of row n of q with row m of k. -/
theorem v6_at (x0 x1 : A4) (b : Fin 256) (h : Fin 6) (n m : Fin 256) :
    val_main_v6 (F := Ideal) x0 x1 (ix4 b h n m)
      = Cert.Attn.dotp (fun n' d => x0 (ix4 b h n' d)) (fun n' d => x1 (ix4 b h n' d)) n m := by
  rw [val_main_v6_apply]
  unfold Cert.Attn.dotp
  refine Finset.sum_congr rfl fun k _ => ?_
  have el : lidx_main_v6 (ix4 b h n m) k = ix4 b h n k := by
    funext a; match a with | ⟨0, _⟩ => rfl | ⟨1, _⟩ => rfl | ⟨2, _⟩ => rfl | ⟨3, _⟩ => rfl
  have er : ridx_main_v6 (ix4 b h n m) k = ix4 b h m k := by
    funext a; match a with | ⟨0, _⟩ => rfl | ⟨1, _⟩ => rfl | ⟨2, _⟩ => rfl | ⟨3, _⟩ => rfl
  rw [el, er]

/-- The Euclidean distance of row n of q from row m of k: the root of the clamped square, the literals kept as words. -/
theorem v15_at (x0 x1 : A4) (b : Fin 256) (h : Fin 6) (n m : Fin 256) :
    val_main_v15 (F := Ideal) x0 x1 (ix4 b h n m)
      = Ideal.sqrt (max (Cert.Attn.sqn (fun n' d => x0 (ix4 b h n' d)) n + Cert.Attn.sqn (fun n' d => x1 (ix4 b h n' d)) m
            - Ideal.ofBits .f32 0x40000000#32
              * Cert.Attn.dotp (fun n' d => x0 (ix4 b h n' d)) (fun n' d => x1 (ix4 b h n' d)) n m)
          (Ideal.ofBits .f32 0x00000000#32)) := by
  have e7 : val_main_v7 (F := Ideal) x0 (ix4 b h n m) = Cert.Attn.sqn (fun n' d => x0 (ix4 b h n' d)) n := by
    rw [val_main_v7_apply, val_main_v2_apply]
    have e : idx_main_v2 (idx_main_v7 (ix4 b h n m)) = ix3 b h n := by
      funext a; match a with | ⟨0, _⟩ => rfl | ⟨1, _⟩ => rfl | ⟨2, _⟩ => rfl
    rw [e, v1_at]
  have e8 : val_main_v8 (F := Ideal) x1 (ix4 b h n m) = Cert.Attn.sqn (fun n' d => x1 (ix4 b h n' d)) m := by
    rw [val_main_v8_apply, val_main_v5_apply]
    have e : idx_main_v5 (idx_main_v8 (ix4 b h n m)) = ix3 b h m := by
      funext a; match a with | ⟨0, _⟩ => rfl | ⟨1, _⟩ => rfl | ⟨2, _⟩ => rfl
    rw [e, v4_at]
  have e10 : val_main_v10 (F := Ideal) (ix4 b h n m) = Ideal.ofBits .f32 0x40000000#32 := by
    rw [val_main_v10_apply, val_main_cst_1_apply]; rfl
  have e13 : val_main_v13 (F := Ideal) (ix4 b h n m) = Ideal.ofBits .f32 0x00000000#32 := by
    rw [val_main_v13_apply, val_main_cst_2_apply]; rfl
  rw [val_main_v15_apply, val_main_v14_apply, val_main_v12_apply, val_main_v9_apply, val_main_v11_apply,
    e7, e8, e10, e13, v6_at]
  rfl

/-- Splitting the batch axis as 4 × 64: the flat position of (b, h, n, m) has the coordinates (b / 64, b mod 64, h, n, m). -/
theorem idx32_ix (b : Fin 256) (h : Fin 6) (n m : Fin 256) :
    idx_main_v32 (ix4 b h n m) = ix5 (⟨b.val / 64, by omega⟩ : Fin 4) (Cert.Attn.wn b) h n m := by
  have hb := b.isLt; have hh := h.isLt; have hn := n.isLt; have hm := m.isLt
  funext a
  match a with
  | ⟨0, _⟩ =>
    refine Fin.ext ?_
    show (((b.val * 6 + h.val) * 256 + n.val) * 256 + m.val) / 25165824 = b.val / 64
    omega
  | ⟨1, _⟩ =>
    refine Fin.ext ?_
    show (((b.val * 6 + h.val) * 256 + n.val) * 256 + m.val) / 393216 % 64 = b.val % 64
    omega
  | ⟨2, _⟩ =>
    refine Fin.ext ?_
    show (((b.val * 6 + h.val) * 256 + n.val) * 256 + m.val) / 65536 % 6 = h.val
    omega
  | ⟨3, _⟩ =>
    refine Fin.ext ?_
    show (((b.val * 6 + h.val) * 256 + n.val) * 256 + m.val) / 256 % 256 = n.val
    omega
  | ⟨4, _⟩ =>
    refine Fin.ext ?_
    show (((b.val * 6 + h.val) * 256 + n.val) * 256 + m.val) % 256 = m.val
    omega

/-- Merging the split batch axis back: (b₁, b₂, h, n, m) sits at batch entry 64 · b₁ + b₂. -/
theorem idx28_ix (b1 : Fin 4) (b2 : Fin 64) (h : Fin 6) (n m : Fin 256) :
    idx_main_v28 (ix5 b1 b2 h n m) = ix4 (⟨b1.val * 64 + b2.val, by omega⟩ : Fin 256) h n m := by
  have hb1 := b1.isLt; have hb2 := b2.isLt; have hh := h.isLt; have hn := n.isLt; have hm := m.isLt
  funext a
  match a with
  | ⟨0, _⟩ =>
    refine Fin.ext ?_
    show ((((b1.val * 64 + b2.val) * 6 + h.val) * 256 + n.val) * 256 + m.val) / 393216 = b1.val * 64 + b2.val
    omega
  | ⟨1, _⟩ =>
    refine Fin.ext ?_
    show ((((b1.val * 64 + b2.val) * 6 + h.val) * 256 + n.val) * 256 + m.val) / 65536 % 6 = h.val
    omega
  | ⟨2, _⟩ =>
    refine Fin.ext ?_
    show ((((b1.val * 64 + b2.val) * 6 + h.val) * 256 + n.val) * 256 + m.val) / 256 % 256 = n.val
    omega
  | ⟨3, _⟩ =>
    refine Fin.ext ?_
    show ((((b1.val * 64 + b2.val) * 6 + h.val) * 256 + n.val) * 256 + m.val) % 256 = m.val
    omega

/-- The logit: the distance plus the bias plus the mask of window b mod 64 (the split and the merge of the batch axis
    compose to the identity). -/
theorem v32_at (x0 x1 : A4) (x3 : (⟨S961x6, .f32⟩ : BufTy).Contents (Elt Ideal))
    (x4 : (⟨S64x256x256, .f32⟩ : BufTy).Contents (Elt Ideal)) (x5 : (⟨S65536, .i32⟩ : BufTy).Contents (Elt Ideal))
    (b : Fin 256) (h : Fin 6) (n m : Fin 256) :
    val_main_v32 (F := Ideal) x0 x1 x3 x4 x5 (ix4 b h n m)
      = Cert.Attn.logit (fun n' d => x0 (ix4 b h n' d)) (fun n' d => x1 (ix4 b h n' d))
          (fun n' m' => val_main_v24 (F := Ideal) x3 x5 (ix3 h n' m')) (fun n' m' => x4 (ix3 (Cert.Attn.wn b) n' m')) n m := by
  have e26 : val_main_v26 (F := Ideal) x3 x5 (ix4 b h n m) = val_main_v24 (F := Ideal) x3 x5 (ix3 h n m) := by
    rw [val_main_v26_apply, val_main_v25_apply]
    have e : idx_main_v25 (idx_main_v26 (ix4 b h n m)) = ix3 h n m := by
      funext a; match a with | ⟨0, _⟩ => rfl | ⟨1, _⟩ => rfl | ⟨2, _⟩ => rfl
    rw [e]
  have eb : (⟨b.val / 64 * 64 + (Cert.Attn.wn b).val, by have := b.isLt; show b.val / 64 * 64 + b.val % 64 < 256; omega⟩ : Fin 256) = b :=
    Fin.ext (by show b.val / 64 * 64 + b.val % 64 = b.val; omega)
  have e28 : val_main_v28 (F := Ideal) x0 x1 x3 x5 (idx_main_v32 (ix4 b h n m))
      = val_main_v27 (F := Ideal) x0 x1 x3 x5 (ix4 b h n m) := by
    rw [val_main_v28_apply, idx32_ix, idx28_ix, eb]
  have e30 : val_main_v30 (F := Ideal) x4 (idx_main_v32 (ix4 b h n m)) = x4 (ix3 (Cert.Attn.wn b) n m) := by
    rw [val_main_v30_apply, val_main_v29_apply, idx32_ix]
    have e : idx_main_v29 (idx_main_v30 (ix5 (⟨b.val / 64, by omega⟩ : Fin 4) (Cert.Attn.wn b) h n m)) = ix3 (Cert.Attn.wn b) n m := by
      funext a; match a with | ⟨0, _⟩ => rfl | ⟨1, _⟩ => rfl | ⟨2, _⟩ => rfl
    rw [e]
  rw [val_main_v32_apply, val_main_v31_apply, e28, e30, val_main_v27_apply, e26, v15_at]
  rfl

/-- The row of logits of query n in the slices at (b, h). -/
abbrev Lrow (x0 x1 : A4) (x3 : (⟨S961x6, .f32⟩ : BufTy).Contents (Elt Ideal))
    (x4 : (⟨S64x256x256, .f32⟩ : BufTy).Contents (Elt Ideal)) (x5 : (⟨S65536, .i32⟩ : BufTy).Contents (Elt Ideal))
    (b : Fin 256) (h : Fin 6) (n : Fin 256) : Fin 256 → EReal :=
  Cert.Attn.logit (fun n' d => x0 (ix4 b h n' d)) (fun n' d => x1 (ix4 b h n' d))
    (fun n' m' => val_main_v24 (F := Ideal) x3 x5 (ix3 h n' m')) (fun n' m' => x4 (ix3 (Cert.Attn.wn b) n' m')) n

/-- The maximum over the key axis is the fold of max from −∞ over the 256 keys. -/
theorem v33_at (x0 x1 : A4) (x3 : (⟨S961x6, .f32⟩ : BufTy).Contents (Elt Ideal))
    (x4 : (⟨S64x256x256, .f32⟩ : BufTy).Contents (Elt Ideal)) (x5 : (⟨S65536, .i32⟩ : BufTy).Contents (Elt Ideal))
    (b : Fin 256) (h : Fin 6) (n : Fin 256) :
    val_main_v33 (F := Ideal) x0 x1 x3 x4 x5 (ix3 b h n)
      = (Finset.univ : Finset (Fin 256)).fold max (Ideal.ofBits .f32 0xFF800000#32)
          (fun m => val_main_v32 (F := Ideal) x0 x1 x3 x4 x5 (ix4 b h n m)) := by
  unfold val_main_v33
  generalize val_main_v32 (F := Ideal) x0 x1 x3 x4 x5 = y
  have hR : Shape.Reduces S256x6x256x256 [3] S256x6x256 := by decide
  have key := Host.reduce_eq_fold_single (s := S256x6x256x256) (t := S256x6x256) (a := 3) (u := S_) (α := EReal)
    (FloatOps.maximumf (F := Ideal) (φ := .f32)) y (val_main_cst_4 (F := Ideal)) reducesTo_S256x6x256x256_S256x6x256_d3 hR h_S_ (ix3 b h n)
  refine key.trans ?_
  have e : (fun m : Fin 256 => y (hR.lift (ix3 b h n) m)) = fun m => y (ix4 b h n m) :=
    funext fun k => congrArg y (funext fun a => Fin.ext (by
      match a with | ⟨0, _⟩ => rfl | ⟨1, _⟩ => rfl | ⟨2, _⟩ => rfl | ⟨3, _⟩ => rfl))
  show (Finset.univ : Finset (Fin 256)).fold max (Ideal.ofBits .f32 0xFF800000#32)
      (fun m : Fin 256 => y (hR.lift (ix3 b h n) m)) = _
  rw [e]

/-- The row maximum, compared once more with −∞. -/
theorem v35_at (x0 x1 : A4) (x3 : (⟨S961x6, .f32⟩ : BufTy).Contents (Elt Ideal))
    (x4 : (⟨S64x256x256, .f32⟩ : BufTy).Contents (Elt Ideal)) (x5 : (⟨S65536, .i32⟩ : BufTy).Contents (Elt Ideal))
    (b : Fin 256) (h : Fin 6) (n : Fin 256) :
    val_main_v35 (F := Ideal) x0 x1 x3 x4 x5 (ix3 b h n) = Cert.Attn.rowmax (Lrow x0 x1 x3 x4 x5 b h n) := by
  have e : (fun m => val_main_v32 (F := Ideal) x0 x1 x3 x4 x5 (ix4 b h n m)) = Lrow x0 x1 x3 x4 x5 b h n :=
    funext fun m => v32_at x0 x1 x3 x4 x5 b h n m
  rw [val_main_v35_apply, val_main_v34_apply, val_main_cst_5_apply, v33_at, e]
  rfl

/-- The shifted exponential. -/
theorem v39_at (x0 x1 : A4) (x3 : (⟨S961x6, .f32⟩ : BufTy).Contents (Elt Ideal))
    (x4 : (⟨S64x256x256, .f32⟩ : BufTy).Contents (Elt Ideal)) (x5 : (⟨S65536, .i32⟩ : BufTy).Contents (Elt Ideal))
    (b : Fin 256) (h : Fin 6) (n m : Fin 256) :
    val_main_v39 (F := Ideal) x0 x1 x3 x4 x5 (ix4 b h n m) = Cert.Attn.expd (Lrow x0 x1 x3 x4 x5 b h n) m := by
  have e37 : val_main_v37 (F := Ideal) x0 x1 x3 x4 x5 (ix4 b h n m) = Cert.Attn.rowmax (Lrow x0 x1 x3 x4 x5 b h n) := by
    rw [val_main_v37_apply, val_main_v36_apply]
    have e : idx_main_v36 (idx_main_v37 (ix4 b h n m)) = ix3 b h n := by
      funext a; match a with | ⟨0, _⟩ => rfl | ⟨1, _⟩ => rfl | ⟨2, _⟩ => rfl
    rw [e, v35_at]
  rw [val_main_v39_apply, val_main_v38_apply, e37, v32_at]
  rfl

/-- The row's sum of shifted exponentials, from the zero word. -/
theorem v40_at (x0 x1 : A4) (x3 : (⟨S961x6, .f32⟩ : BufTy).Contents (Elt Ideal))
    (x4 : (⟨S64x256x256, .f32⟩ : BufTy).Contents (Elt Ideal)) (x5 : (⟨S65536, .i32⟩ : BufTy).Contents (Elt Ideal))
    (b : Fin 256) (h : Fin 6) (n : Fin 256) :
    val_main_v40 (F := Ideal) x0 x1 x3 x4 x5 (ix3 b h n) = ∑ m' : Fin 256, Cert.Attn.expd (Lrow x0 x1 x3 x4 x5 b h n) m' := by
  rw [val_main_v40_apply, val_main_cst_6_apply]
  show Ideal.ofBits .f32 0x00000000#32 + _ = _
  rw [Ideal.ofBits_zero_f32, zero_add]
  refine Finset.sum_congr rfl fun k _ => ?_
  have e : idx_main_v40 (ix3 b h n) k = ix4 b h n k := by
    funext a; match a with | ⟨0, _⟩ => rfl | ⟨1, _⟩ => rfl | ⟨2, _⟩ => rfl | ⟨3, _⟩ => rfl
  rw [e, v39_at]

/-- The softmax weight. -/
theorem v43_at (x0 x1 : A4) (x3 : (⟨S961x6, .f32⟩ : BufTy).Contents (Elt Ideal))
    (x4 : (⟨S64x256x256, .f32⟩ : BufTy).Contents (Elt Ideal)) (x5 : (⟨S65536, .i32⟩ : BufTy).Contents (Elt Ideal))
    (b : Fin 256) (h : Fin 6) (n m : Fin 256) :
    val_main_v43 (F := Ideal) x0 x1 x3 x4 x5 (ix4 b h n m) = Cert.Attn.prob (Lrow x0 x1 x3 x4 x5 b h n) m := by
  have e42 : val_main_v42 (F := Ideal) x0 x1 x3 x4 x5 (ix4 b h n m)
      = ∑ m' : Fin 256, Cert.Attn.expd (Lrow x0 x1 x3 x4 x5 b h n) m' := by
    rw [val_main_v42_apply, val_main_v41_apply]
    have e : idx_main_v41 (idx_main_v42 (ix4 b h n m)) = ix3 b h n := by
      funext a; match a with | ⟨0, _⟩ => rfl | ⟨1, _⟩ => rfl | ⟨2, _⟩ => rfl
    rw [e, v40_at]
  rw [val_main_v43_apply, e42, v39_at]
  rfl

/-- The second product: the weights of row n against column d of v, summed over the 256 keys. -/
theorem v44_at (x0 x1 x2 : A4) (x3 : (⟨S961x6, .f32⟩ : BufTy).Contents (Elt Ideal))
    (x4 : (⟨S64x256x256, .f32⟩ : BufTy).Contents (Elt Ideal)) (x5 : (⟨S65536, .i32⟩ : BufTy).Contents (Elt Ideal))
    (b : Fin 256) (h : Fin 6) (n : Fin 256) (d : Fin 32) :
    val_main_v44 (F := Ideal) x0 x1 x2 x3 x4 x5 (ix4 b h n d)
      = Cert.Attn.attn1 (fun n' d' => x0 (ix4 b h n' d')) (fun n' d' => x1 (ix4 b h n' d')) (fun n' d' => x2 (ix4 b h n' d'))
          (fun n' m' => val_main_v24 (F := Ideal) x3 x5 (ix3 h n' m')) (fun n' m' => x4 (ix3 (Cert.Attn.wn b) n' m')) n d := by
  rw [val_main_v44_apply]
  unfold Cert.Attn.attn1
  refine Finset.sum_congr rfl fun k _ => ?_
  have el : lidx_main_v44 (ix4 b h n d) k = ix4 b h n k := by
    funext a; match a with | ⟨0, _⟩ => rfl | ⟨1, _⟩ => rfl | ⟨2, _⟩ => rfl | ⟨3, _⟩ => rfl
  have er : ridx_main_v44 (ix4 b h n d) k = ix4 b h k d := by
    funext a; match a with | ⟨0, _⟩ => rfl | ⟨1, _⟩ => rfl | ⟨2, _⟩ => rfl | ⟨3, _⟩ => rfl
  rw [el, er, v43_at]

/-- The transpose and the merge of the head and feature axes: column c of the result is feature c mod 32 of head c / 32. -/
theorem idx46_ix (b n : Fin 256) (c : Fin 192) :
    idx_main_v45 (idx_main_v46 (ix3 b n c)) = ix4 b (Cert.Attn.hd c) n (Cert.Attn.ln c) := by
  have hb := b.isLt; have hn := n.isLt; have hc := c.isLt
  funext a
  match a with
  | ⟨0, _⟩ =>
    refine Fin.ext ?_
    show ((b.val * 256 + n.val) * 192 + c.val) / 49152 = b.val
    omega
  | ⟨1, _⟩ =>
    refine Fin.ext ?_
    show ((b.val * 256 + n.val) * 192 + c.val) / 32 % 6 = c.val / 32
    omega
  | ⟨2, _⟩ =>
    refine Fin.ext ?_
    show ((b.val * 256 + n.val) * 192 + c.val) / 192 % 256 = n.val
    omega
  | ⟨3, _⟩ =>
    refine Fin.ext ?_
    show ((b.val * 256 + n.val) * 192 + c.val) % 32 = c.val % 32
    omega

/-- The reference's result at (b, n, c) is the specification's. -/
theorem ref_at (x0 x1 x2 : (⟨S256x6x256x32, .f32⟩ : BufTy).Contents (Elt Ideal)) (x3 : (⟨S961x6, .f32⟩ : BufTy).Contents (Elt Ideal))
    (x4 : (⟨S64x256x256, .f32⟩ : BufTy).Contents (Elt Ideal)) (x5 : (⟨S65536, .i32⟩ : BufTy).Contents (Elt Ideal))
    (b : Fin 256) (n : Fin 256) (c : Fin 192) :
    Cert.ReferenceIdeal.Read.val_main_v46 (F := Ideal) x0 x1 x2 x3 x4 x5 (ix3 b n c)
      = Cert.Attn.Gc x0 x1 x2 (Cert.ReferenceIdeal.Read.val_main_v24 (F := Ideal) x3 x5) x4 b n c := by
  rw [val_main_v46_apply, val_main_v45_apply, idx46_ix, v44_at]
  rfl

end Cert.Attn.Ref
end
-- ==== Proof.lean ====
/-
  The certificate of the windowed-attention kernel against its jnp reference.

  Both programs compute, for every batch entry b, head h, query row n and feature d, the attention output

      Σ m  softmax_m (‖Q n − K m‖ + B n m + M n m) · V m d

  (the distance written sqrt (max (|Q n|² + |K m|² − 2 ⟨Q n, K m⟩) 0), the softmax with its row maximum subtracted) of the
  slices of q, k, v at (b, h), the relative-position bias at head h and the mask of window b mod 64, stored at
  (b, n, 32 · h + d): the specification `Cert.Attn.G` (Proof/Spec.lean). The kernel does it one batch entry per grid point,
  with its two matrix products in bf16 — the identity on the extended reals — and its six heads stored slab by slab
  (Proof/Stores.lean, Proof/KerPay.lean, Proof/WholeArray.lean); the reference does it on whole arrays
  (Proof/RefRead.lean). Both gather the bias with the same host operations (Proof/Bias.lean). Every operation is the same
  on the two sides and in the same order, sums and maxima over a row are sums and folds over its coordinates on either
  side, so no law of the extended reals beyond 0 + x = x is used and the precondition is never opened.
  The three frames are the generated ones (the reference's: its generated run with the result dropped); the ideal pass
  rewrote nothing, so `preserves` is trivial.
-/
import proofs.«131583_j59373627899920_1_alg».proof.Defs
import proofs.«131583_j59373627899920_1_alg».proof.Proof.Gen.Kernel
import proofs.«131583_j59373627899920_1_alg».proof.Proof.Gen.Kernel.Skeleton
import proofs.«131583_j59373627899920_1_alg».proof.Proof.Gen.Kernel.Launch
import proofs.«131583_j59373627899920_1_alg».proof.Proof.Gen.Kernel.Points
import proofs.«131583_j59373627899920_1_alg».proof.Proof.Gen.Kernel.Frame
import proofs.«131583_j59373627899920_1_alg».proof.Proof.Gen.KernelIdeal
import proofs.«131583_j59373627899920_1_alg».proof.Proof.Gen.KernelIdeal.Skeleton
import proofs.«131583_j59373627899920_1_alg».proof.Proof.Gen.KernelIdeal.Launch
import proofs.«131583_j59373627899920_1_alg».proof.Proof.Gen.KernelIdeal.Points
import proofs.«131583_j59373627899920_1_alg».proof.Proof.Gen.KernelIdeal.Frame
import proofs.«131583_j59373627899920_1_alg».proof.Proof.Gen.ReferenceIdeal
import proofs.«131583_j59373627899920_1_alg».proof.Proof.Gen.Pre_finite_inputs
import proofs.«131583_j59373627899920_1_alg».proof.Proof.Gen.KernelIdeal.Value
import proofs.«131583_j59373627899920_1_alg».proof.Proof.Gen.ReferenceIdeal.Run
import proofs.«131583_j59373627899920_1_alg».proof.Proof.Gen.ReferenceIdeal.Read
import proofs.«131583_j59373627899920_1_alg».proof.Proof.Spec
import proofs.«131583_j59373627899920_1_alg».proof.Proof.WholeArray
import proofs.«131583_j59373627899920_1_alg».proof.Proof.Bias
import proofs.«131583_j59373627899920_1_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The reference's result stage is the specification of its arguments, the bias kept as its own stage. -/
theorem ref_eq (x0 x1 x2 : (⟨Cert.ReferenceIdeal.S256x6x256x32, .f32⟩ : BufTy).Contents (Elt Ideal))
    (x3 : (⟨Cert.ReferenceIdeal.S961x6, .f32⟩ : BufTy).Contents (Elt Ideal))
    (x4 : (⟨Cert.ReferenceIdeal.S64x256x256, .f32⟩ : BufTy).Contents (Elt Ideal))
    (x5 : (⟨Cert.ReferenceIdeal.S65536, .i32⟩ : BufTy).Contents (Elt Ideal)) :
    Cert.ReferenceIdeal.Read.val_main_v46 (F := Ideal) x0 x1 x2 x3 x4 x5
      = Cert.Attn.G x0 x1 x2 (Cert.ReferenceIdeal.Read.val_main_v24 (F := Ideal) x3 x5) x4 := by
  funext i
  obtain ⟨b, n, c, rfl⟩ : ∃ (b : Fin 256) (n : Fin 256) (c : Fin 192), i = ix3 b n c := ⟨i 0, i 1, i 2, eq_ix3 i⟩
  rw [Cert.Attn.G_ix3]
  exact Cert.Attn.Ref.ref_at x0 x1 x2 x3 x4 x5 b n c

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At `Ideal` the kernel's output array ends at the specification of its arguments (the blocks of the 256 grid points
    cover it) and the reference's result is the same specification of arguments that agree. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.ReferenceIdeal.Read.val_main_v24 (F := Ideal)
        (m ((c.tc : Thread Cert.KernelIdeal.nD Cert.KernelIdeal.τ).loc Cert.KernelIdeal.main_arg3))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Value.run_blocks (F := Ideal) m ρ)
    rw [Cert.Attn.Whole.final m c, Cert.Attn.Bias.bias_eq m c, Cert.KernelIdeal.Gen.V_main_arg0, Cert.KernelIdeal.Gen.V_main_arg1,
      Cert.KernelIdeal.Gen.V_main_arg2, Cert.KernelIdeal.Gen.V_main_arg4]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v46_eq, ref_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
